-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v139)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S4x128 .f32) (main_arg7 : FVec F S128x16 .f32) (main_arg8 : FVec F S16 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S4x128x128 .f32) (main_arg6 : FVec F S4x128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128x128 : Shape := ⟨3, ![1, 128, 128]⟩
abbrev S1x128 : Shape := ⟨2, ![1, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S512x16 : Shape := ⟨2, ![512, 16]⟩
abbrev S1x16 : Shape := ⟨2, ![1, 16]⟩

abbrev nBuf : Space → Nat
  | .hbm => 183
  | .vmem => 50
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S128x16, .f32⟩
  | 8 => ⟨S16, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S50000x128, .bf16⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .bf16⟩
  | 60 => ⟨S850000x128, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S_, .f32⟩
  | 68 => ⟨S50000x128, .f32⟩
  | 69 => ⟨S1x128x128, .f32⟩
  | 70 => ⟨S128x128, .f32⟩
  | 71 => ⟨S1x128, .f32⟩
  | 72 => ⟨S50000x128, .f32⟩
  | 73 => ⟨S50000x128, .bf16⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .bf16⟩
  | 83 => ⟨S850000x128, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S128, .f32⟩
  | 92 => ⟨S1x128x128, .f32⟩
  | 93 => ⟨S128x128, .f32⟩
  | 94 => ⟨S1x128, .f32⟩
  | 95 => ⟨S50000x128, .f32⟩
  | 96 => ⟨S50000x128, .bf16⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .bf16⟩
  | 106 => ⟨S850000x128, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S128, .f32⟩
  | 115 => ⟨S1x128x128, .f32⟩
  | 116 => ⟨S128x128, .f32⟩
  | 117 => ⟨S1x128, .f32⟩
  | 118 => ⟨S50000x128, .f32⟩
  | 119 => ⟨S50000x128, .bf16⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x128, .bf16⟩
  | 1 => ⟨S850000x128, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S128, .f32⟩
  | 10 => ⟨S1x128x128, .f32⟩
  | 11 => ⟨S128x128, .f32⟩
  | 12 => ⟨S1x128, .f32⟩
  | 13 => ⟨S50000x128, .f32⟩
  | 14 => ⟨S50000x128, .bf16⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x128, .bf16⟩
  | 24 => ⟨S850000x128, .f32⟩
  | 25 => ⟨S850000x128, .f32⟩
  | 26 => ⟨S850000x128, .f32⟩
  | 27 => ⟨S_, .f32⟩
  | 28 => ⟨S50000x128, .f32⟩
  | 29 => ⟨S850000x1, .i32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S_, .f32⟩
  | 36 => ⟨S50000, .f32⟩
  | 37 => ⟨S_, .f32⟩
  | 38 => ⟨S512, .f32⟩
  | 39 => ⟨S50000x1, .i32⟩
  | 40 => ⟨S512, .f32⟩
  | 41 => ⟨S_, .f32⟩
  | 42 => ⟨S512x128, .f32⟩
  | 43 => ⟨S50000x1, .i32⟩
  | 44 => ⟨S512x128, .f32⟩
  | 45 => ⟨S_, .f32⟩
  | 46 => ⟨S512, .f32⟩
  | 47 => ⟨S512, .f32⟩
  | 48 => ⟨S512x1, .f32⟩
  | 49 => ⟨S512x128, .f32⟩
  | 50 => ⟨S512x128, .f32⟩
  | 51 => ⟨S512x16, .f32⟩
  | 52 => ⟨S1x16, .f32⟩
  | 53 => ⟨S512x16, .f32⟩
  | 54 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .bf16⟩
  | .local _ .vmem, ⟨24, _⟩ => ⟨S5000x128, .bf16⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .bf16⟩
  | .local _ .vmem, ⟨34, _⟩ => ⟨S5000x128, .bf16⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .bf16⟩
  | .local _ .vmem, ⟨44, _⟩ => ⟨S5000x128, .bf16⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68_0 : Ref sig .tc := ⟨.hbm, 95, rfl⟩
abbrev main_v68_1 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87_0 : Ref sig .tc := ⟨.hbm, 118, rfl⟩
abbrev main_v87_1 : Ref sig .tc := ⟨.hbm, 119, rfl⟩
abbrev main_c_16 : Ref sig .tc := ⟨.hbm, 120, rfl⟩
abbrev main_v88 : Ref sig .tc := ⟨.hbm, 121, rfl⟩
abbrev main_v89 : Ref sig .tc := ⟨.hbm, 122, rfl⟩
abbrev main_c_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106_0 : Ref sig .tc := ⟨.hbm, 141, rfl⟩
abbrev main_v106_1 : Ref sig .tc := ⟨.hbm, 142, rfl⟩
abbrev main_c_19 : Ref sig .tc := ⟨.hbm, 143, rfl⟩
abbrev main_v107 : Ref sig .tc := ⟨.hbm, 144, rfl⟩
abbrev main_v108 : Ref sig .tc := ⟨.hbm, 145, rfl⟩
abbrev main_c_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_21 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg4_1 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem4_1 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .bf16 = 32 ∨ (Rect.block (s := S50000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .bf16 = 32 ∨ (Rect.block (s := S50000x128) S5000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v68_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v87_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v100) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_0) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v104) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v106_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S512x16 : Shape := ⟨2, ![512, 16]⟩
abbrev S1x16 : Shape := ⟨2, ![1, 16]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S128x16, .f32⟩
  | 8 => ⟨S16, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x128x128, .f32⟩
  | 76 => ⟨S128x128, .f32⟩
  | 77 => ⟨S1x128, .f32⟩
  | 78 => ⟨S128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S1x128, .f32⟩
  | 6 => ⟨S128, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S50000x128, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x128, .f32⟩
  | 45 => ⟨S850000x1, .f32⟩
  | 46 => ⟨S850000x128, .f32⟩
  | 47 => ⟨S850000x128, .f32⟩
  | 48 => ⟨S_, .f32⟩
  | 49 => ⟨S50000x128, .f32⟩
  | 50 => ⟨S850000x1, .i32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000, .f32⟩
  | 60 => ⟨S_, .f32⟩
  | 61 => ⟨S512, .f32⟩
  | 62 => ⟨S50000x1, .i32⟩
  | 63 => ⟨S512, .f32⟩
  | 64 => ⟨S_, .f32⟩
  | 65 => ⟨S512x128, .f32⟩
  | 66 => ⟨S50000x1, .i32⟩
  | 67 => ⟨S512x128, .f32⟩
  | 68 => ⟨S_, .f32⟩
  | 69 => ⟨S512, .f32⟩
  | 70 => ⟨S512, .f32⟩
  | 71 => ⟨S512x1, .f32⟩
  | 72 => ⟨S512x128, .f32⟩
  | 73 => ⟨S512x128, .f32⟩
  | 74 => ⟨S512x16, .f32⟩
  | 75 => ⟨S1x16, .f32⟩
  | 76 => ⟨S512x16, .f32⟩
  | 77 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call2_cst : Ref sig .tc := ⟨.hbm, 99, rfl⟩
abbrev main_call2_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call3_cst : Ref sig .tc := ⟨.hbm, 127, rfl⟩
abbrev main_call3_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_16 : Ref sig .tc := ⟨.hbm, 136, rfl⟩
abbrev main_v101 : Ref sig .tc := ⟨.hbm, 137, rfl⟩
abbrev main_v102 : Ref sig .tc := ⟨.hbm, 138, rfl⟩
abbrev main_c_17 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_18 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call4_cst : Ref sig .tc := ⟨.hbm, 155, rfl⟩
abbrev main_call4_v0 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_19 : Ref sig .tc := ⟨.hbm, 164, rfl⟩
abbrev main_v124 : Ref sig .tc := ⟨.hbm, 165, rfl⟩
abbrev main_v125 : Ref sig .tc := ⟨.hbm, 166, rfl⟩
abbrev main_c_20 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_21 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_call5_cst : Ref sig .tc := ⟨.hbm, 183, rfl⟩
abbrev main_call5_v0 : Ref sig .tc := ⟨.hbm, 184, rfl⟩
abbrev main_v140 : Ref sig .tc := ⟨.hbm, 185, rfl⟩
abbrev main_cst_22 : Ref sig .tc := ⟨.hbm, 186, rfl⟩
abbrev main_v141 : Ref sig .tc := ⟨.hbm, 187, rfl⟩
abbrev main_cst_23 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_24 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_25 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x16_S512x16_1_0_0_1_n_n_wf : DotDims.WF S512x128 S128x16 S512x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.Named.lean ====
/-
  The run of the whole program with its final buffer contents named.  The program is fifteen segments: host stretches
  and six pipelined regions in turn.  Each segment is entered with every unscoped buffer at one valuation and left with
  every unscoped buffer at the next; the last valuation is the fold of all of them from the launch memory.  So every
  execution ends with each unscoped buffer, the two results among them, holding what that last valuation gives it.
-/
import proofs.«105511_j64080912056839_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates, and every unscoped buffer of every core ends at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- A result buffer of the program at the end of a run. -/
theorem result_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W15 m ρ c (Proc.devRef .tc b)) :=
  (θ_run defs _ _).mono (fun r h c => h c _ (mem_uc b hb)) (run_named m ρ)

end Cert.KernelIdeal.Named

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«105511_j64080912056839_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Dense0.lean ====
/-
  The first matrix product.  The grid has ten points; point `t` reads rows `5000 t … 5000 t + 4999` of the feature
  array and the whole weight, and writes the same rows of the product.  An entry `(p, q)` of a matrix product depends
  on row `p` of the left factor and column `q` of the right one only, so the rows a point writes are the rows of the
  product of the WHOLE feature array with the weight; the ten row blocks tile the 50000 rows, hence the output array
  ends as that whole product.  The narrowing of the operands and of the result to a shorter float format is the
  identity on the extended reals.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's result: the product of its row block with the weight. -/
theorem pay (x0 : Vec Ideal S5000x128 .f32) (x1 : Vec Ideal S128x128 .f32) :
    (k0_pay1 (F := Ideal) x0 x1 : S5000x128.Idx → EReal) = mm x0 x1 := by
  unfold k0_pay1
  exact matmul_zero_eq_mm (φ₁ := .bf16) (φ₂ := .bf16) dot_S5000x128_S128x128_S5000x128_1_0_0_1_n_n rfl rfl rfl rfl rfl rfl none x0 x1

/-- The block indices over the grid: the feature and output blocks are row block `t`, the weight's block is the whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal)
      (mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay]
  obtain ⟨e0, e1, e2, e3, e4, e5⟩ := idx_facts t
  funext j
  show mm (iblk0 V c 0 t) (iblk0 V c 1 t) j
    = mm (V c (Pipeline.arrRef spec0 0)) (V c (Pipeline.arrRef spec0 1)) (((cfg0.win 2).blk t).view.emb j)
  refine mm_at _ _ _ _ j _ (fun k => ?_) (fun k => ?_)
  · show V c (Pipeline.arrRef spec0 0) (((cfg0.win 0).blk t).view.emb (ix2 (c0 j) k)) = _
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c (Pipeline.arrRef spec0 1) (((cfg0.win 1).blk t).view.emb (ix2 k (c1 j))) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Row `r` lies in the block of point `r / 5000`. -/
theorem cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : grid0.N = 10 := N_0
  have ht : (i 0).val / 5000 < grid0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The output array after the region: the whole matrix product of the two arrays the region found. -/
theorem final (c : Dev nD) :
    (dat0 V c).arrAt 2 cfg0.N = mm (V c (Pipeline.arrRef spec0 0)) (V c (Pipeline.arrRef spec0 1)) :=
  (dat0 V c).arrAt_eq_of_cover 2 _ (fun t _ => flushed_eq V c t) (cover)

end Cert.KernelIdeal.Dense0

end
-- ==== Proof.Fused1.lean ====
/-
  One fused region (the layer's bias, rectification and the next layer's matrix product).  The grid has ten points; point
  `t` reads rows `5000 t … 5000 t + 4999` of the aggregated array `S` and of the residual array `P`, the whole bias row `b`
  and the whole weight `W`, and writes the same rows of two outputs: `C = max (S + b, 0)` (the bias added to every row) and
  `(C + P) · W`.  An entry `(p, q)` of `C` depends on `S (p, q)` and `b (0, q)`; an entry of the product on row `p` of its
  left factor and column `q` of `W`.  Hence the rows a point writes are the rows of the same expressions of the WHOLE
  arrays, and since the ten row blocks tile the 50000 rows, the two output arrays end as those whole-array expressions.
  The narrowing of the matrix unit's operands and result to a shorter float format is the identity on the extended reals.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Fused1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's first result: its row block plus the bias row, rectified. -/
theorem pay1 (x0 : Vec Ideal S5000x128 .f32) (x1 : Vec Ideal S1x128 .f32) :
    (k1_pay1 (F := Ideal) x0 x1 : S5000x128.Idx → EReal) = reluBias x0 x1 := by
  unfold k1_pay1
  simp only [shapeCast_self]
  exact vecReluBias x0 x1 _

/-- One point's second result: (the first result + the residual block) times the weight. -/
theorem pay2 (x0 : Vec Ideal S5000x128 .f32) (x1 : Vec Ideal S1x128 .f32) (x2 : Vec Ideal S5000x128 .f32)
    (x3 : Vec Ideal S128x128 .f32) :
    (k1_pay2 (F := Ideal) x0 x1 x2 x3 : S5000x128.Idx → EReal) = mm (addf (F := Ideal) (φ := .f32) (reluBias x0 x1) x2) x3 := by
  unfold k1_pay2
  simp only [shapeCast_self]
  rw [pay1]
  exact matmul_zero_eq_mm (φ₁ := .bf16) (φ₂ := .bf16) dot_S5000x128_S128x128_S5000x128_1_0_0_1_n_n rfl rfl rfl rfl rfl rfl none
    (addf (F := Ideal) (φ := .f32) (reluBias x0 x1) x2) x3

/-- The block indices over the grid: the row-blocked windows are at row block `t`, the bias and the weight are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The rectified bias layer of the blocks at `j` is that of the whole arrays at `j`'s place in the array. -/
theorem relu_block (c : Dev nD) (t : Fin cfg1.N) (j : S5000x128.Idx) (i : S50000x128.Idx)
    (h0 : (i 0).val = t.val * 5000 + (j 0).val) (h1 : (i 1).val = (j 1).val) :
    reluBias (iblk1 V c 0 t) (iblk1 V c 1 t) j
      = reluBias (V c (Pipeline.arrRef spec1 0)) (V c (Pipeline.arrRef spec1 1)) i := by
  obtain ⟨e0, e1, e2, e3, e4, e5, e6, e7, e8, e9, e10, e11⟩ := idx_facts t
  refine reluBias_at _ _ _ _ j i ?_ ?_
  · show V c (Pipeline.arrRef spec1 0) (((cfg1.win 0).blk t).view.emb j) = _
    refine congrArg _ (funext fun a => Fin.ext ?_)
    match a with
    | ⟨0, _⟩ =>
      show win1_0.index t (0 : Fin 2) * 5000 + 1 * (j 0).val = (i 0).val
      omega
    | ⟨1, _⟩ =>
      show win1_0.index t (1 : Fin 2) * 128 + 1 * (j 1).val = (i 1).val
      omega
  · show V c (Pipeline.arrRef spec1 1) (((cfg1.win 1).blk t).view.emb (ix2 (0 : Fin 1) (c1 j))) = _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = (i 1).val
      omega

/-- What point `t` writes back to the first output is block `t` of the whole rectified bias layer. -/
theorem flushed4_eq (c : Dev nD) (t : Fin cfg1.N) :
    (dat1 V c).flushed 4 t = ((cfg1.win 4).blk t).view.read (Elt Ideal)
      (reluBias (V c (Pipeline.arrRef spec1 0)) (V c (Pipeline.arrRef spec1 1))) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  rw [pay1]
  obtain ⟨e0, e1, e2, e3, e4, e5, e6, e7, e8, e9, e10, e11⟩ := idx_facts t
  funext j
  show reluBias (iblk1 V c 0 t) (iblk1 V c 1 t) j
    = reluBias (V c (Pipeline.arrRef spec1 0)) (V c (Pipeline.arrRef spec1 1)) (((cfg1.win 4).blk t).view.emb j)
  refine relu_block V c t j _ ?_ ?_
  · show win1_4.index t (0 : Fin 2) * 5000 + 1 * (j 0).val = t.val * 5000 + (j 0).val
    omega
  · show win1_4.index t (1 : Fin 2) * 128 + 1 * (j 1).val = (j 1).val
    omega

/-- The residual block at `j` is the residual array at `j`'s place in the array. -/
theorem res_block (c : Dev nD) (t : Fin cfg1.N) (j : S5000x128.Idx) (i : S50000x128.Idx)
    (h0 : (i 0).val = t.val * 5000 + (j 0).val) (h1 : (i 1).val = (j 1).val) :
    iblk1 V c 2 t j = V c (Pipeline.arrRef spec1 2) i := by
  obtain ⟨e0, e1, e2, e3, e4, e5, e6, e7, e8, e9, e10, e11⟩ := idx_facts t
  show V c (Pipeline.arrRef spec1 2) (((cfg1.win 2).blk t).view.emb j) = _
  refine congrArg _ (funext fun a => Fin.ext ?_)
  match a with
  | ⟨0, _⟩ =>
    show win1_2.index t (0 : Fin 2) * 5000 + 1 * (j 0).val = (i 0).val
    omega
  | ⟨1, _⟩ =>
    show win1_2.index t (1 : Fin 2) * 128 + 1 * (j 1).val = (i 1).val
    omega

/-- The weight's block is the whole weight. -/
theorem wgt_block (c : Dev nD) (t : Fin cfg1.N) (x y : S128x128.Idx)
    (h0 : (y 0).val = (x 0).val) (h1 : (y 1).val = (x 1).val) :
    iblk1 V c 3 t x = V c (Pipeline.arrRef spec1 3) y := by
  obtain ⟨e0, e1, e2, e3, e4, e5, e6, e7, e8, e9, e10, e11⟩ := idx_facts t
  show V c (Pipeline.arrRef spec1 3) (((cfg1.win 3).blk t).view.emb x) = _
  refine congrArg _ (funext fun a => Fin.ext ?_)
  match a with
  | ⟨0, _⟩ =>
    show win1_3.index t (0 : Fin 2) * 128 + 1 * (x 0).val = (y 0).val
    omega
  | ⟨1, _⟩ =>
    show win1_3.index t (1 : Fin 2) * 128 + 1 * (x 1).val = (y 1).val
    omega

/-- The matrix unit's left operand at `j`: the activation plus the residual, of the whole arrays at `j`'s place. -/
theorem sum_block (c : Dev nD) (t : Fin cfg1.N) (j : S5000x128.Idx) (i : S50000x128.Idx)
    (h0 : (i 0).val = t.val * 5000 + (j 0).val) (h1 : (i 1).val = (j 1).val) :
    addf (F := Ideal) (φ := .f32) (reluBias (iblk1 V c 0 t) (iblk1 V c 1 t)) (iblk1 V c 2 t) j
      = addf (F := Ideal) (φ := .f32) (reluBias (V c (Pipeline.arrRef spec1 0)) (V c (Pipeline.arrRef spec1 1)))
          (V c (Pipeline.arrRef spec1 2)) i := by
  rw [addf_apply, addf_apply, relu_block V c t j i h0 h1, res_block V c t j i h0 h1]

set_option maxHeartbeats 1000000 in
/-- What point `t` writes back to the second output is block `t` of the whole product. -/
theorem flushed5_eq (c : Dev nD) (t : Fin cfg1.N) :
    (dat1 V c).flushed 5 t = ((cfg1.win 5).blk t).view.read (Elt Ideal)
      (mm (addf (F := Ideal) (φ := .f32) (reluBias (V c (Pipeline.arrRef spec1 0)) (V c (Pipeline.arrRef spec1 1)))
        (V c (Pipeline.arrRef spec1 2))) (V c (Pipeline.arrRef spec1 3))) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S128x128) hz]
  rw [pay2]
  obtain ⟨e0, e1, e2, e3, e4, e5, e6, e7, e8, e9, e10, e11⟩ := idx_facts t
  funext j
  show mm (addf (F := Ideal) (φ := .f32) (reluBias (iblk1 V c 0 t) (iblk1 V c 1 t)) (iblk1 V c 2 t)) (iblk1 V c 3 t) j
    = mm (addf (F := Ideal) (φ := .f32) (reluBias (V c (Pipeline.arrRef spec1 0)) (V c (Pipeline.arrRef spec1 1)))
        (V c (Pipeline.arrRef spec1 2))) (V c (Pipeline.arrRef spec1 3)) (((cfg1.win 5).blk t).view.emb j)
  refine mm_at _ _ _ _ j _ (fun k => sum_block V c t _ _ ?_ ?_) (fun k => wgt_block V c t _ _ ?_ ?_)
  · show win1_5.index t (0 : Fin 2) * 5000 + 1 * (j 0).val = t.val * 5000 + (j 0).val
    omega
  · rfl
  · rfl
  · show win1_5.index t (1 : Fin 2) * 128 + 1 * (j 1).val = (j 1).val
    omega

/-- An index of an output array is in point `t`'s block iff each coordinate is in the block's range. -/
theorem mem_blk4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v49_0).slice (win1_4.rect t)).set ↔ _
  rw [View.set_slice_whole, Rect.mem_set_unit]
  exact Iff.rfl

theorem mem_blk5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49_1).slice (win1_5.rect t)).set ↔ _
  rw [View.set_slice_whole, Rect.mem_set_unit]
  exact Iff.rfl

/-- Row `r` lies in the block of point `r / 5000`, for either output. -/
theorem cover4 (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  have hN : grid1.N = 10 := N_1
  have ht : (i 0).val / 5000 < grid1.N := by rw [hN]; omega
  obtain ⟨e0, e1, e2, e3, e4, e5, e6, e7, e8, e9, e10, e11⟩ := idx_facts ⟨(i 0).val / 5000, ht⟩
  refine ⟨⟨(i 0).val / 5000, ht⟩, flush1_4 _, ?_⟩
  rw [mem_blk4]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

theorem cover5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : grid1.N = 10 := N_1
  have ht : (i 0).val / 5000 < grid1.N := by rw [hN]; omega
  obtain ⟨e0, e1, e2, e3, e4, e5, e6, e7, e8, e9, e10, e11⟩ := idx_facts ⟨(i 0).val / 5000, ht⟩
  refine ⟨⟨(i 0).val / 5000, ht⟩, flush1_5 _, ?_⟩
  rw [mem_blk5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- The first output array after the region: the whole rectified bias layer of the arrays the region found. -/
theorem final4 (c : Dev nD) :
    (dat1 V c).arrAt 4 cfg1.N = reluBias (V c (Pipeline.arrRef spec1 0)) (V c (Pipeline.arrRef spec1 1)) :=
  (dat1 V c).arrAt_eq_of_cover 4 _ (fun t _ => flushed4_eq V c t) (cover4)

/-- The second output array after the region: (the first output + the residual array) times the weight. -/
theorem final5 (c : Dev nD) :
    (dat1 V c).arrAt 5 cfg1.N
      = mm (addf (F := Ideal) (φ := .f32) (reluBias (V c (Pipeline.arrRef spec1 0)) (V c (Pipeline.arrRef spec1 1)))
          (V c (Pipeline.arrRef spec1 2))) (V c (Pipeline.arrRef spec1 3)) :=
  (dat1 V c).arrAt_eq_of_cover 5 _ (fun t _ => flushed5_eq V c t) (cover5)

end Cert.KernelIdeal.Fused1

end
-- ==== Proof.Fused2.lean ====
/-
  One fused region (the layer's bias, rectification and the next layer's matrix product).  The grid has ten points; point
  `t` reads rows `5000 t … 5000 t + 4999` of the aggregated array `S` and of the residual array `P`, the whole bias row `b`
  and the whole weight `W`, and writes the same rows of two outputs: `C = max (S + b, 0)` (the bias added to every row) and
  `(C + P) · W`.  An entry `(p, q)` of `C` depends on `S (p, q)` and `b (0, q)`; an entry of the product on row `p` of its
  left factor and column `q` of `W`.  Hence the rows a point writes are the rows of the same expressions of the WHOLE
  arrays, and since the ten row blocks tile the 50000 rows, the two output arrays end as those whole-array expressions.
  The narrowing of the matrix unit's operands and result to a shorter float format is the identity on the extended reals.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Fused2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's first result: its row block plus the bias row, rectified. -/
theorem pay1 (x0 : Vec Ideal S5000x128 .f32) (x1 : Vec Ideal S1x128 .f32) :
    (k2_pay1 (F := Ideal) x0 x1 : S5000x128.Idx → EReal) = reluBias x0 x1 := by
  unfold k2_pay1
  simp only [shapeCast_self]
  exact vecReluBias x0 x1 _

/-- One point's second result: (the first result + the residual block) times the weight. -/
theorem pay2 (x0 : Vec Ideal S5000x128 .f32) (x1 : Vec Ideal S1x128 .f32) (x2 : Vec Ideal S5000x128 .f32)
    (x3 : Vec Ideal S128x128 .f32) :
    (k2_pay2 (F := Ideal) x0 x1 x2 x3 : S5000x128.Idx → EReal) = mm (addf (F := Ideal) (φ := .f32) (reluBias x0 x1) x2) x3 := by
  unfold k2_pay2
  simp only [shapeCast_self]
  rw [pay1]
  exact matmul_zero_eq_mm (φ₁ := .bf16) (φ₂ := .bf16) dot_S5000x128_S128x128_S5000x128_1_0_0_1_n_n rfl rfl rfl rfl rfl rfl none
    (addf (F := Ideal) (φ := .f32) (reluBias x0 x1) x2) x3

/-- The block indices over the grid: the row-blocked windows are at row block `t`, the bias and the weight are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The rectified bias layer of the blocks at `j` is that of the whole arrays at `j`'s place in the array. -/
theorem relu_block (c : Dev nD) (t : Fin cfg2.N) (j : S5000x128.Idx) (i : S50000x128.Idx)
    (h0 : (i 0).val = t.val * 5000 + (j 0).val) (h1 : (i 1).val = (j 1).val) :
    reluBias (iblk2 V c 0 t) (iblk2 V c 1 t) j
      = reluBias (V c (Pipeline.arrRef spec2 0)) (V c (Pipeline.arrRef spec2 1)) i := by
  obtain ⟨e0, e1, e2, e3, e4, e5, e6, e7, e8, e9, e10, e11⟩ := idx_facts t
  refine reluBias_at _ _ _ _ j i ?_ ?_
  · show V c (Pipeline.arrRef spec2 0) (((cfg2.win 0).blk t).view.emb j) = _
    refine congrArg _ (funext fun a => Fin.ext ?_)
    match a with
    | ⟨0, _⟩ =>
      show win2_0.index t (0 : Fin 2) * 5000 + 1 * (j 0).val = (i 0).val
      omega
    | ⟨1, _⟩ =>
      show win2_0.index t (1 : Fin 2) * 128 + 1 * (j 1).val = (i 1).val
      omega
  · show V c (Pipeline.arrRef spec2 1) (((cfg2.win 1).blk t).view.emb (ix2 (0 : Fin 1) (c1 j))) = _
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 128 + 1 * (j 1).val = (i 1).val
      omega

/-- What point `t` writes back to the first output is block `t` of the whole rectified bias layer. -/
theorem flushed4_eq (c : Dev nD) (t : Fin cfg2.N) :
    (dat2 V c).flushed 4 t = ((cfg2.win 4).blk t).view.read (Elt Ideal)
      (reluBias (V c (Pipeline.arrRef spec2 0)) (V c (Pipeline.arrRef spec2 1))) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz]
  rw [pay1]
  obtain ⟨e0, e1, e2, e3, e4, e5, e6, e7, e8, e9, e10, e11⟩ := idx_facts t
  funext j
  show reluBias (iblk2 V c 0 t) (iblk2 V c 1 t) j
    = reluBias (V c (Pipeline.arrRef spec2 0)) (V c (Pipeline.arrRef spec2 1)) (((cfg2.win 4).blk t).view.emb j)
  refine relu_block V c t j _ ?_ ?_
  · show win2_4.index t (0 : Fin 2) * 5000 + 1 * (j 0).val = t.val * 5000 + (j 0).val
    omega
  · show win2_4.index t (1 : Fin 2) * 128 + 1 * (j 1).val = (j 1).val
    omega

/-- The residual block at `j` is the residual array at `j`'s place in the array. -/
theorem res_block (c : Dev nD) (t : Fin cfg2.N) (j : S5000x128.Idx) (i : S50000x128.Idx)
    (h0 : (i 0).val = t.val * 5000 + (j 0).val) (h1 : (i 1).val = (j 1).val) :
    iblk2 V c 2 t j = V c (Pipeline.arrRef spec2 2) i := by
  obtain ⟨e0, e1, e2, e3, e4, e5, e6, e7, e8, e9, e10, e11⟩ := idx_facts t
  show V c (Pipeline.arrRef spec2 2) (((cfg2.win 2).blk t).view.emb j) = _
  refine congrArg _ (funext fun a => Fin.ext ?_)
  match a with
  | ⟨0, _⟩ =>
    show win2_2.index t (0 : Fin 2) * 5000 + 1 * (j 0).val = (i 0).val
    omega
  | ⟨1, _⟩ =>
    show win2_2.index t (1 : Fin 2) * 128 + 1 * (j 1).val = (i 1).val
    omega

/-- The weight's block is the whole weight. -/
theorem wgt_block (c : Dev nD) (t : Fin cfg2.N) (x y : S128x128.Idx)
    (h0 : (y 0).val = (x 0).val) (h1 : (y 1).val = (x 1).val) :
    iblk2 V c 3 t x = V c (Pipeline.arrRef spec2 3) y := by
  obtain ⟨e0, e1, e2, e3, e4, e5, e6, e7, e8, e9, e10, e11⟩ := idx_facts t
  show V c (Pipeline.arrRef spec2 3) (((cfg2.win 3).blk t).view.emb x) = _
  refine congrArg _ (funext fun a => Fin.ext ?_)
  match a with
  | ⟨0, _⟩ =>
    show win2_3.index t (0 : Fin 2) * 128 + 1 * (x 0).val = (y 0).val
    omega
  | ⟨1, _⟩ =>
    show win2_3.index t (1 : Fin 2) * 128 + 1 * (x 1).val = (y 1).val
    omega

/-- The matrix unit's left operand at `j`: the activation plus the residual, of the whole arrays at `j`'s place. -/
theorem sum_block (c : Dev nD) (t : Fin cfg2.N) (j : S5000x128.Idx) (i : S50000x128.Idx)
    (h0 : (i 0).val = t.val * 5000 + (j 0).val) (h1 : (i 1).val = (j 1).val) :
    addf (F := Ideal) (φ := .f32) (reluBias (iblk2 V c 0 t) (iblk2 V c 1 t)) (iblk2 V c 2 t) j
      = addf (F := Ideal) (φ := .f32) (reluBias (V c (Pipeline.arrRef spec2 0)) (V c (Pipeline.arrRef spec2 1)))
          (V c (Pipeline.arrRef spec2 2)) i := by
  rw [addf_apply, addf_apply, relu_block V c t j i h0 h1, res_block V c t j i h0 h1]

set_option maxHeartbeats 1000000 in
/-- What point `t` writes back to the second output is block `t` of the whole product. -/
theorem flushed5_eq (c : Dev nD) (t : Fin cfg2.N) :
    (dat2 V c).flushed 5 t = ((cfg2.win 5).blk t).view.read (Elt Ideal)
      (mm (addf (F := Ideal) (φ := .f32) (reluBias (V c (Pipeline.arrRef spec2 0)) (V c (Pipeline.arrRef spec2 1)))
        (V c (Pipeline.arrRef spec2 2))) (V c (Pipeline.arrRef spec2 3))) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz, View.ld_unit_zero (S := S128x128) hz]
  rw [pay2]
  obtain ⟨e0, e1, e2, e3, e4, e5, e6, e7, e8, e9, e10, e11⟩ := idx_facts t
  funext j
  show mm (addf (F := Ideal) (φ := .f32) (reluBias (iblk2 V c 0 t) (iblk2 V c 1 t)) (iblk2 V c 2 t)) (iblk2 V c 3 t) j
    = mm (addf (F := Ideal) (φ := .f32) (reluBias (V c (Pipeline.arrRef spec2 0)) (V c (Pipeline.arrRef spec2 1)))
        (V c (Pipeline.arrRef spec2 2))) (V c (Pipeline.arrRef spec2 3)) (((cfg2.win 5).blk t).view.emb j)
  refine mm_at _ _ _ _ j _ (fun k => sum_block V c t _ _ ?_ ?_) (fun k => wgt_block V c t _ _ ?_ ?_)
  · show win2_5.index t (0 : Fin 2) * 5000 + 1 * (j 0).val = t.val * 5000 + (j 0).val
    omega
  · rfl
  · rfl
  · show win2_5.index t (1 : Fin 2) * 128 + 1 * (j 1).val = (j 1).val
    omega

/-- An index of an output array is in point `t`'s block iff each coordinate is in the block's range. -/
theorem mem_blk4 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v68_0).slice (win2_4.rect t)).set ↔ _
  rw [View.set_slice_whole, Rect.mem_set_unit]
  exact Iff.rfl

theorem mem_blk5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v68_1).slice (win2_5.rect t)).set ↔ _
  rw [View.set_slice_whole, Rect.mem_set_unit]
  exact Iff.rfl

/-- Row `r` lies in the block of point `r / 5000`, for either output. -/
theorem cover4 (i : S50000x128.Idx) :
    ∃ t : Fin cfg2.N, (cfg2.win 4).flush t = true ∧ i ∈ ((cfg2.win 4).blk t).view.set := by
  have hi0 : (i 0).val < 50000 := idx2_lt0 i
  have hi1 : (i 1).val < 128 := idx2_lt1 i
  have hN : grid2.N = 10 := N_2
  have ht : (i 0).val / 5000 < grid2.N := by rw [hN]; omega
  obtain ⟨e0, e1, e2, e3, e4, e5, e6, e7, e8, e9, e10, e11⟩ := idx_facts ⟨(i 0).val / 5000, ht⟩
  refine ⟨⟨(i 0).val / 5000, ht⟩, flush2_4 _, ?_⟩
  rw [mem_blk4]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    omega

theorem cover5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : grid2.N = 10 := N_2
  have ht : (i 0).val / 5000 < grid2.N := by rw [hN]; omega
  obtain ⟨e0, e1, e2, e3, e4, e5, e6, e7, e8, e9, e10, e11⟩ := idx_facts ⟨(i 0).val / 5000, ht⟩
  refine ⟨⟨(i 0).val / 5000, ht⟩, flush2_5 _, ?_⟩
  rw [mem_blk5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e10]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- The first output array after the region: the whole rectified bias layer of the arrays the region found. -/
theorem final4 (c : Dev nD) :
    (dat2 V c).arrAt 4 cfg2.N = reluBias (V c (Pipeline.arrRef spec2 0)) (V c (Pipeline.arrRef spec2 1)) :=
  (dat2 V c).arrAt_eq_of_cover 4 _ (fun t _ => flushed4_eq V c t) (cover4)

/-- The second output array after the region: (the first output + the residual array) times the weight. -/
theorem final5 (c : Dev nD) :
    (dat2 V c).arrAt 5 cfg2.N
      = mm (addf (F := Ideal) (φ := .f32) (reluBias (V c (Pipeline.arrRef spec2 0)) (V c (Pipeline.arrRef spec2 1)))
          (V c (Pipeline.arrRef spec2 2))) (V c (Pipeline.arrRef spec2 3)) :=
  (dat2 V c).arrAt_eq_of_cover 5 _ (fun t _ => flushed5_eq V c t) (cover5)

end Cert.KernelIdeal.Fused2

end
-- ==== Proof.Fused3.lean ====
/-
  One fused region (the layer's bias, rectification and the next layer's matrix product).  The grid has ten points; point
  `t` reads rows `5000 t … 5000 t + 4999` of the aggregated array `S` and of the residual array `P`, the whole bias row `b`
  and the whole weight `W`, and writes the same rows of two outputs: `C = max (S + b, 0)` (the bias added to every row) and
  `(C + P) · W`.  An entry `(p, q)` of `C` depends on `S (p, q)` and `b (0, q)`; an entry of the product on row `p` of its
  left factor and column `q` of `W`.  Hence the rows a point writes are the rows of the same expressions of the WHOLE
  arrays, and since the ten row blocks tile the 50000 rows, the two output arrays end as those whole-array expressions.
  The narrowing of the matrix unit's operands and result to a shorter float format is the identity on the extended reals.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Fused3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's first result: its row block plus the bias row, rectified. -/
theorem pay1 (x0 : Vec Ideal S5000x128 .f32) (x1 : Vec Ideal S1x128 .f32) :
    (k3_pay1 (F := Ideal) x0 x1 : S5000x128.Idx → EReal) = reluBias x0 x1 := by
  unfold k3_pay1
  simp only [shapeCast_self]
  exact vecReluBias x0 x1 _

/-- One point's second result: (the first result + the residual block) times the weight. -/
theorem pay2 (x0 : Vec Ideal S5000x128 .f32) (x1 : Vec Ideal S1x128 .f32) (x2 : Vec Ideal S5000x128 .f32)
    (x3 : Vec Ideal S128x128 .f32) :
    (k3_pay2 (F := Ideal) x0 x1 x2 x3 : S5000x128.Idx → EReal) = mm (addf (F := Ideal) (φ := .f32) (reluBias x0 x1) x2) x3 := by
  unfold k3_pay2
  simp only [shapeCast_self]
  rw [pay1]
  exact matmul_zero_eq_mm (φ₁ := .bf16) (φ₂ := .bf16) dot_S5000x128_S128x128_S5000x128_1_0_0_1_n_n rfl rfl rfl rfl rfl rfl none
    (addf (F := Ideal) (φ := .f32) (reluBias x0 x1) x2) x3

/-- The block indices over the grid: the row-blocked windows are at row block `t`, the bias and the weight are whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The rectified bias layer of the blocks at `j` is that of the whole arrays at `j`'s place in the array. -/
theorem relu_block (c : Dev nD) (t : Fin cfg3.N) (j : S5000x128.Idx) (i : S50000x128.Idx)
    (h0 : (i 0).val = t.val * 5000 + (j 0).val) (h1 : (i 1).val = (j 1).val) :
    reluBias (iblk3 V c 0 t) (iblk3 V c 1 t) j
      = reluBias (V c (Pipeline.arrRef spec3 0)) (V c (Pipeline.arrRef spec3 1)) i := by
  obtain ⟨e0, e1, e2, e3, e4, e5, e6, e7, e8, e9, e10, e11⟩ := idx_facts t
  refine reluBias_at _ _ _ _ j i ?_ ?_
  · show V c (Pipeline.arrRef spec3 0) (((cfg3.win 0).blk t).view.emb j) = _
    refine congrArg _ (funext fun a => Fin.ext ?_)
    match a with
    | ⟨0, _⟩ =>
      show win3_0.index t (0 : Fin 2) * 5000 + 1 * (j 0).val = (i 0).val
      omega
    | ⟨1, _⟩ =>
      show win3_0.index t (1 : Fin 2) * 128 + 1 * (j 1).val = (i 1).val
      omega
  · show V c (Pipeline.arrRef spec3 1) (((cfg3.win 1).blk t).view.emb (ix2 (0 : Fin 1) (c1 j))) = _
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = (i 1).val
      omega

/-- What point `t` writes back to the first output is block `t` of the whole rectified bias layer. -/
theorem flushed4_eq (c : Dev nD) (t : Fin cfg3.N) :
    (dat3 V c).flushed 4 t = ((cfg3.win 4).blk t).view.read (Elt Ideal)
      (reluBias (V c (Pipeline.arrRef spec3 0)) (V c (Pipeline.arrRef spec3 1))) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  rw [pay1]
  obtain ⟨e0, e1, e2, e3, e4, e5, e6, e7, e8, e9, e10, e11⟩ := idx_facts t
  funext j
  show reluBias (iblk3 V c 0 t) (iblk3 V c 1 t) j
    = reluBias (V c (Pipeline.arrRef spec3 0)) (V c (Pipeline.arrRef spec3 1)) (((cfg3.win 4).blk t).view.emb j)
  refine relu_block V c t j _ ?_ ?_
  · show win3_4.index t (0 : Fin 2) * 5000 + 1 * (j 0).val = t.val * 5000 + (j 0).val
    omega
  · show win3_4.index t (1 : Fin 2) * 128 + 1 * (j 1).val = (j 1).val
    omega

/-- The residual block at `j` is the residual array at `j`'s place in the array. -/
theorem res_block (c : Dev nD) (t : Fin cfg3.N) (j : S5000x128.Idx) (i : S50000x128.Idx)
    (h0 : (i 0).val = t.val * 5000 + (j 0).val) (h1 : (i 1).val = (j 1).val) :
    iblk3 V c 2 t j = V c (Pipeline.arrRef spec3 2) i := by
  obtain ⟨e0, e1, e2, e3, e4, e5, e6, e7, e8, e9, e10, e11⟩ := idx_facts t
  show V c (Pipeline.arrRef spec3 2) (((cfg3.win 2).blk t).view.emb j) = _
  refine congrArg _ (funext fun a => Fin.ext ?_)
  match a with
  | ⟨0, _⟩ =>
    show win3_2.index t (0 : Fin 2) * 5000 + 1 * (j 0).val = (i 0).val
    omega
  | ⟨1, _⟩ =>
    show win3_2.index t (1 : Fin 2) * 128 + 1 * (j 1).val = (i 1).val
    omega

/-- The weight's block is the whole weight. -/
theorem wgt_block (c : Dev nD) (t : Fin cfg3.N) (x y : S128x128.Idx)
    (h0 : (y 0).val = (x 0).val) (h1 : (y 1).val = (x 1).val) :
    iblk3 V c 3 t x = V c (Pipeline.arrRef spec3 3) y := by
  obtain ⟨e0, e1, e2, e3, e4, e5, e6, e7, e8, e9, e10, e11⟩ := idx_facts t
  show V c (Pipeline.arrRef spec3 3) (((cfg3.win 3).blk t).view.emb x) = _
  refine congrArg _ (funext fun a => Fin.ext ?_)
  match a with
  | ⟨0, _⟩ =>
    show win3_3.index t (0 : Fin 2) * 128 + 1 * (x 0).val = (y 0).val
    omega
  | ⟨1, _⟩ =>
    show win3_3.index t (1 : Fin 2) * 128 + 1 * (x 1).val = (y 1).val
    omega

/-- The matrix unit's left operand at `j`: the activation plus the residual, of the whole arrays at `j`'s place. -/
theorem sum_block (c : Dev nD) (t : Fin cfg3.N) (j : S5000x128.Idx) (i : S50000x128.Idx)
    (h0 : (i 0).val = t.val * 5000 + (j 0).val) (h1 : (i 1).val = (j 1).val) :
    addf (F := Ideal) (φ := .f32) (reluBias (iblk3 V c 0 t) (iblk3 V c 1 t)) (iblk3 V c 2 t) j
      = addf (F := Ideal) (φ := .f32) (reluBias (V c (Pipeline.arrRef spec3 0)) (V c (Pipeline.arrRef spec3 1)))
          (V c (Pipeline.arrRef spec3 2)) i := by
  rw [addf_apply, addf_apply, relu_block V c t j i h0 h1, res_block V c t j i h0 h1]

set_option maxHeartbeats 1000000 in
/-- What point `t` writes back to the second output is block `t` of the whole product. -/
theorem flushed5_eq (c : Dev nD) (t : Fin cfg3.N) :
    (dat3 V c).flushed 5 t = ((cfg3.win 5).blk t).view.read (Elt Ideal)
      (mm (addf (F := Ideal) (φ := .f32) (reluBias (V c (Pipeline.arrRef spec3 0)) (V c (Pipeline.arrRef spec3 1)))
        (V c (Pipeline.arrRef spec3 2))) (V c (Pipeline.arrRef spec3 3))) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz, View.ld_unit_zero (S := S128x128) hz]
  rw [pay2]
  obtain ⟨e0, e1, e2, e3, e4, e5, e6, e7, e8, e9, e10, e11⟩ := idx_facts t
  funext j
  show mm (addf (F := Ideal) (φ := .f32) (reluBias (iblk3 V c 0 t) (iblk3 V c 1 t)) (iblk3 V c 2 t)) (iblk3 V c 3 t) j
    = mm (addf (F := Ideal) (φ := .f32) (reluBias (V c (Pipeline.arrRef spec3 0)) (V c (Pipeline.arrRef spec3 1)))
        (V c (Pipeline.arrRef spec3 2))) (V c (Pipeline.arrRef spec3 3)) (((cfg3.win 5).blk t).view.emb j)
  refine mm_at _ _ _ _ j _ (fun k => sum_block V c t _ _ ?_ ?_) (fun k => wgt_block V c t _ _ ?_ ?_)
  · show win3_5.index t (0 : Fin 2) * 5000 + 1 * (j 0).val = t.val * 5000 + (j 0).val
    omega
  · rfl
  · rfl
  · show win3_5.index t (1 : Fin 2) * 128 + 1 * (j 1).val = (j 1).val
    omega

/-- An index of an output array is in point `t`'s block iff each coordinate is in the block's range. -/
theorem mem_blk4 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v87_0).slice (win3_4.rect t)).set ↔ _
  rw [View.set_slice_whole, Rect.mem_set_unit]
  exact Iff.rfl

theorem mem_blk5 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v87_1).slice (win3_5.rect t)).set ↔ _
  rw [View.set_slice_whole, Rect.mem_set_unit]
  exact Iff.rfl

/-- Row `r` lies in the block of point `r / 5000`, for either output. -/
theorem cover4 (i : S50000x128.Idx) :
    ∃ t : Fin cfg3.N, (cfg3.win 4).flush t = true ∧ i ∈ ((cfg3.win 4).blk t).view.set := by
  have hi0 : (i 0).val < 50000 := idx2_lt0 i
  have hi1 : (i 1).val < 128 := idx2_lt1 i
  have hN : grid3.N = 10 := N_3
  have ht : (i 0).val / 5000 < grid3.N := by rw [hN]; omega
  obtain ⟨e0, e1, e2, e3, e4, e5, e6, e7, e8, e9, e10, e11⟩ := idx_facts ⟨(i 0).val / 5000, ht⟩
  refine ⟨⟨(i 0).val / 5000, ht⟩, flush3_4 _, ?_⟩
  rw [mem_blk4]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    omega

theorem cover5 (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  have hN : grid3.N = 10 := N_3
  have ht : (i 0).val / 5000 < grid3.N := by rw [hN]; omega
  obtain ⟨e0, e1, e2, e3, e4, e5, e6, e7, e8, e9, e10, e11⟩ := idx_facts ⟨(i 0).val / 5000, ht⟩
  refine ⟨⟨(i 0).val / 5000, ht⟩, flush3_5 _, ?_⟩
  rw [mem_blk5]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e10]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    omega

/-- The first output array after the region: the whole rectified bias layer of the arrays the region found. -/
theorem final4 (c : Dev nD) :
    (dat3 V c).arrAt 4 cfg3.N = reluBias (V c (Pipeline.arrRef spec3 0)) (V c (Pipeline.arrRef spec3 1)) :=
  (dat3 V c).arrAt_eq_of_cover 4 _ (fun t _ => flushed4_eq V c t) (cover4)

/-- The second output array after the region: (the first output + the residual array) times the weight. -/
theorem final5 (c : Dev nD) :
    (dat3 V c).arrAt 5 cfg3.N
      = mm (addf (F := Ideal) (φ := .f32) (reluBias (V c (Pipeline.arrRef spec3 0)) (V c (Pipeline.arrRef spec3 1)))
          (V c (Pipeline.arrRef spec3 2))) (V c (Pipeline.arrRef spec3 3)) :=
  (dat3 V c).arrAt_eq_of_cover 5 _ (fun t _ => flushed5_eq V c t) (cover5)

end Cert.KernelIdeal.Fused3

end
-- ==== Proof.Fused4.lean ====
/-
  One fused region (the layer's bias, rectification and the next layer's matrix product).  The grid has ten points; point
  `t` reads rows `5000 t … 5000 t + 4999` of the aggregated array `S` and of the residual array `P`, the whole bias row `b`
  and the whole weight `W`, and writes the same rows of two outputs: `C = max (S + b, 0)` (the bias added to every row) and
  `(C + P) · W`.  An entry `(p, q)` of `C` depends on `S (p, q)` and `b (0, q)`; an entry of the product on row `p` of its
  left factor and column `q` of `W`.  Hence the rows a point writes are the rows of the same expressions of the WHOLE
  arrays, and since the ten row blocks tile the 50000 rows, the two output arrays end as those whole-array expressions.
  The narrowing of the matrix unit's operands and result to a shorter float format is the identity on the extended reals.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Fused4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's first result: its row block plus the bias row, rectified. -/
theorem pay1 (x0 : Vec Ideal S5000x128 .f32) (x1 : Vec Ideal S1x128 .f32) :
    (k4_pay1 (F := Ideal) x0 x1 : S5000x128.Idx → EReal) = reluBias x0 x1 := by
  unfold k4_pay1
  simp only [shapeCast_self]
  exact vecReluBias x0 x1 _

/-- One point's second result: (the first result + the residual block) times the weight. -/
theorem pay2 (x0 : Vec Ideal S5000x128 .f32) (x1 : Vec Ideal S1x128 .f32) (x2 : Vec Ideal S5000x128 .f32)
    (x3 : Vec Ideal S128x128 .f32) :
    (k4_pay2 (F := Ideal) x0 x1 x2 x3 : S5000x128.Idx → EReal) = mm (addf (F := Ideal) (φ := .f32) (reluBias x0 x1) x2) x3 := by
  unfold k4_pay2
  simp only [shapeCast_self]
  rw [pay1]
  exact matmul_zero_eq_mm (φ₁ := .bf16) (φ₂ := .bf16) dot_S5000x128_S128x128_S5000x128_1_0_0_1_n_n rfl rfl rfl rfl rfl rfl none
    (addf (F := Ideal) (φ := .f32) (reluBias x0 x1) x2) x3

/-- The block indices over the grid: the row-blocked windows are at row block `t`, the bias and the weight are whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The rectified bias layer of the blocks at `j` is that of the whole arrays at `j`'s place in the array. -/
theorem relu_block (c : Dev nD) (t : Fin cfg4.N) (j : S5000x128.Idx) (i : S50000x128.Idx)
    (h0 : (i 0).val = t.val * 5000 + (j 0).val) (h1 : (i 1).val = (j 1).val) :
    reluBias (iblk4 V c 0 t) (iblk4 V c 1 t) j
      = reluBias (V c (Pipeline.arrRef spec4 0)) (V c (Pipeline.arrRef spec4 1)) i := by
  obtain ⟨e0, e1, e2, e3, e4, e5, e6, e7, e8, e9, e10, e11⟩ := idx_facts t
  refine reluBias_at _ _ _ _ j i ?_ ?_
  · show V c (Pipeline.arrRef spec4 0) (((cfg4.win 0).blk t).view.emb j) = _
    refine congrArg _ (funext fun a => Fin.ext ?_)
    match a with
    | ⟨0, _⟩ =>
      show win4_0.index t (0 : Fin 2) * 5000 + 1 * (j 0).val = (i 0).val
      omega
    | ⟨1, _⟩ =>
      show win4_0.index t (1 : Fin 2) * 128 + 1 * (j 1).val = (i 1).val
      omega
  · show V c (Pipeline.arrRef spec4 1) (((cfg4.win 1).blk t).view.emb (ix2 (0 : Fin 1) (c1 j))) = _
    refine congrArg _ (funext fun a => Fin.ext ?_)
    match a with
    | ⟨0, _⟩ =>
      show win4_1.index t (0 : Fin 2) * 1 + 1 * 0 = 0
      omega
    | ⟨1, _⟩ =>
      show win4_1.index t (1 : Fin 2) * 128 + 1 * (j 1).val = (i 1).val
      omega

/-- What point `t` writes back to the first output is block `t` of the whole rectified bias layer. -/
theorem flushed4_eq (c : Dev nD) (t : Fin cfg4.N) :
    (dat4 V c).flushed 4 t = ((cfg4.win 4).blk t).view.read (Elt Ideal)
      (reluBias (V c (Pipeline.arrRef spec4 0)) (V c (Pipeline.arrRef spec4 1))) := by
  show (cfg4.win 4).cut (grid4.coords t) ((dat4 V c).after 4 t) = _
  rw [after4_4]
  unfold out4_4
  rw [View.canon_unit_zero hz]
  simp only [View.ld_unit_zero (S := S5000x128) hz, View.ld_unit_zero (S := S1x128) hz]
  rw [pay1]
  obtain ⟨e0, e1, e2, e3, e4, e5, e6, e7, e8, e9, e10, e11⟩ := idx_facts t
  funext j
  show reluBias (iblk4 V c 0 t) (iblk4 V c 1 t) j
    = reluBias (V c (Pipeline.arrRef spec4 0)) (V c (Pipeline.arrRef spec4 1)) (((cfg4.win 4).blk t).view.emb j)
  refine relu_block V c t j _ ?_ ?_
  · show win4_4.index t (0 : Fin 2) * 5000 + 1 * (j 0).val = t.val * 5000 + (j 0).val
    omega
  · show win4_4.index t (1 : Fin 2) * 128 + 1 * (j 1).val = (j 1).val
    omega

/-- The residual block at `j` is the residual array at `j`'s place in the array. -/
theorem res_block (c : Dev nD) (t : Fin cfg4.N) (j : S5000x128.Idx) (i : S50000x128.Idx)
    (h0 : (i 0).val = t.val * 5000 + (j 0).val) (h1 : (i 1).val = (j 1).val) :
    iblk4 V c 2 t j = V c (Pipeline.arrRef spec4 2) i := by
  obtain ⟨e0, e1, e2, e3, e4, e5, e6, e7, e8, e9, e10, e11⟩ := idx_facts t
  show V c (Pipeline.arrRef spec4 2) (((cfg4.win 2).blk t).view.emb j) = _
  refine congrArg _ (funext fun a => Fin.ext ?_)
  match a with
  | ⟨0, _⟩ =>
    show win4_2.index t (0 : Fin 2) * 5000 + 1 * (j 0).val = (i 0).val
    omega
  | ⟨1, _⟩ =>
    show win4_2.index t (1 : Fin 2) * 128 + 1 * (j 1).val = (i 1).val
    omega

/-- The weight's block is the whole weight. -/
theorem wgt_block (c : Dev nD) (t : Fin cfg4.N) (x y : S128x128.Idx)
    (h0 : (y 0).val = (x 0).val) (h1 : (y 1).val = (x 1).val) :
    iblk4 V c 3 t x = V c (Pipeline.arrRef spec4 3) y := by
  obtain ⟨e0, e1, e2, e3, e4, e5, e6, e7, e8, e9, e10, e11⟩ := idx_facts t
  show V c (Pipeline.arrRef spec4 3) (((cfg4.win 3).blk t).view.emb x) = _
  refine congrArg _ (funext fun a => Fin.ext ?_)
  match a with
  | ⟨0, _⟩ =>
    show win4_3.index t (0 : Fin 2) * 128 + 1 * (x 0).val = (y 0).val
    omega
  | ⟨1, _⟩ =>
    show win4_3.index t (1 : Fin 2) * 128 + 1 * (x 1).val = (y 1).val
    omega

/-- The matrix unit's left operand at `j`: the activation plus the residual, of the whole arrays at `j`'s place. -/
theorem sum_block (c : Dev nD) (t : Fin cfg4.N) (j : S5000x128.Idx) (i : S50000x128.Idx)
    (h0 : (i 0).val = t.val * 5000 + (j 0).val) (h1 : (i 1).val = (j 1).val) :
    addf (F := Ideal) (φ := .f32) (reluBias (iblk4 V c 0 t) (iblk4 V c 1 t)) (iblk4 V c 2 t) j
      = addf (F := Ideal) (φ := .f32) (reluBias (V c (Pipeline.arrRef spec4 0)) (V c (Pipeline.arrRef spec4 1)))
          (V c (Pipeline.arrRef spec4 2)) i := by
  rw [addf_apply, addf_apply, relu_block V c t j i h0 h1, res_block V c t j i h0 h1]

set_option maxHeartbeats 1000000 in
/-- What point `t` writes back to the second output is block `t` of the whole product. -/
theorem flushed5_eq (c : Dev nD) (t : Fin cfg4.N) :
    (dat4 V c).flushed 5 t = ((cfg4.win 5).blk t).view.read (Elt Ideal)
      (mm (addf (F := Ideal) (φ := .f32) (reluBias (V c (Pipeline.arrRef spec4 0)) (V c (Pipeline.arrRef spec4 1)))
        (V c (Pipeline.arrRef spec4 2))) (V c (Pipeline.arrRef spec4 3))) := by
  show (cfg4.win 5).cut (grid4.coords t) ((dat4 V c).after 5 t) = _
  rw [after4_5]
  unfold out4_5
  rw [View.canon_unit_zero hz]
  simp only [View.ld_unit_zero (S := S5000x128) hz, View.ld_unit_zero (S := S1x128) hz, View.ld_unit_zero (S := S128x128) hz]
  rw [pay2]
  obtain ⟨e0, e1, e2, e3, e4, e5, e6, e7, e8, e9, e10, e11⟩ := idx_facts t
  funext j
  show mm (addf (F := Ideal) (φ := .f32) (reluBias (iblk4 V c 0 t) (iblk4 V c 1 t)) (iblk4 V c 2 t)) (iblk4 V c 3 t) j
    = mm (addf (F := Ideal) (φ := .f32) (reluBias (V c (Pipeline.arrRef spec4 0)) (V c (Pipeline.arrRef spec4 1)))
        (V c (Pipeline.arrRef spec4 2))) (V c (Pipeline.arrRef spec4 3)) (((cfg4.win 5).blk t).view.emb j)
  refine mm_at _ _ _ _ j _ (fun k => sum_block V c t _ _ ?_ ?_) (fun k => wgt_block V c t _ _ ?_ ?_)
  · show win4_5.index t (0 : Fin 2) * 5000 + 1 * (j 0).val = t.val * 5000 + (j 0).val
    omega
  · rfl
  · rfl
  · show win4_5.index t (1 : Fin 2) * 128 + 1 * (j 1).val = (j 1).val
    omega

/-- An index of an output array is in point `t`'s block iff each coordinate is in the block's range. -/
theorem mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v106_0).slice (win4_4.rect t)).set ↔ _
  rw [View.set_slice_whole, Rect.mem_set_unit]
  exact Iff.rfl

theorem mem_blk5 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v106_1).slice (win4_5.rect t)).set ↔ _
  rw [View.set_slice_whole, Rect.mem_set_unit]
  exact Iff.rfl

/-- Row `r` lies in the block of point `r / 5000`, for either output. -/
theorem cover4 (i : S50000x128.Idx) :
    ∃ t : Fin cfg4.N, (cfg4.win 4).flush t = true ∧ i ∈ ((cfg4.win 4).blk t).view.set := by
  have hi0 : (i 0).val < 50000 := idx2_lt0 i
  have hi1 : (i 1).val < 128 := idx2_lt1 i
  have hN : grid4.N = 10 := N_4
  have ht : (i 0).val / 5000 < grid4.N := by rw [hN]; omega
  obtain ⟨e0, e1, e2, e3, e4, e5, e6, e7, e8, e9, e10, e11⟩ := idx_facts ⟨(i 0).val / 5000, ht⟩
  refine ⟨⟨(i 0).val / 5000, ht⟩, flush4_4 _, ?_⟩
  rw [mem_blk4]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win4_4.index ⟨(i 0).val / 5000, ht⟩ (1 : Fin 2) * 128 ≤ (i 1).val
      ∧ (i 1).val < win4_4.index ⟨(i 0).val / 5000, ht⟩ (1 : Fin 2) * 128 + 128
    omega

theorem cover5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  have hN : grid4.N = 10 := N_4
  have ht : (i 0).val / 5000 < grid4.N := by rw [hN]; omega
  obtain ⟨e0, e1, e2, e3, e4, e5, e6, e7, e8, e9, e10, e11⟩ := idx_facts ⟨(i 0).val / 5000, ht⟩
  refine ⟨⟨(i 0).val / 5000, ht⟩, flush4_5 _, ?_⟩
  rw [mem_blk5]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e10]
    show (i 0).val / 5000 * 5000 ≤ (i 0).val ∧ (i 0).val < (i 0).val / 5000 * 5000 + 5000
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

/-- The first output array after the region: the whole rectified bias layer of the arrays the region found. -/
theorem final4 (c : Dev nD) :
    (dat4 V c).arrAt 4 cfg4.N = reluBias (V c (Pipeline.arrRef spec4 0)) (V c (Pipeline.arrRef spec4 1)) :=
  (dat4 V c).arrAt_eq_of_cover 4 _ (fun t _ => flushed4_eq V c t) (cover4)

/-- The second output array after the region: (the first output + the residual array) times the weight. -/
theorem final5 (c : Dev nD) :
    (dat4 V c).arrAt 5 cfg4.N
      = mm (addf (F := Ideal) (φ := .f32) (reluBias (V c (Pipeline.arrRef spec4 0)) (V c (Pipeline.arrRef spec4 1)))
          (V c (Pipeline.arrRef spec4 2))) (V c (Pipeline.arrRef spec4 3)) :=
  (dat4 V c).arrAt_eq_of_cover 5 _ (fun t _ => flushed5_eq V c t) (cover5)

end Cert.KernelIdeal.Fused4

end
-- ==== Proof.Relu5.lean ====
/-
  The last region: the bias row is added to every row of the aggregated array and the sum is rectified.  The grid has ten
  points; point `t` reads rows `5000 t … 5000 t + 4999` of the aggregated array `S` and the whole bias row `b`, and writes
  the same rows of `max (S + b, 0)`.  An entry `(p, q)` depends on `S (p, q)` and `b (0, q)` only, so the rows a point
  writes are the rows of that expression of the WHOLE array, and the ten row blocks tile the 50000 rows.
-/
import proofs.«105511_j64080912056839_2_alg».proof.Proof.Gen.KernelIdeal.Frame
import proofs.«105511_j64080912056839_2_alg».proof.Proof.LibBiasRow
import Idealize.ShloMosaic.Lib.Pipeline.Value
import Idealize.ShloMosaic.Lib.ValueIdx

set_option maxRecDepth 16384

noncomputable section

namespace Cert.KernelIdeal.Relu5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-- One point's result: its row block plus the bias row, rectified. -/
theorem pay1 (x0 : Vec Ideal S5000x128 .f32) (x1 : Vec Ideal S1x128 .f32) :
    (k5_pay1 (F := Ideal) x0 x1 : S5000x128.Idx → EReal) = reluBias x0 x1 := by
  unfold k5_pay1
  simp only [shapeCast_self]
  exact vecReluBias x0 x1 _

/-- The block indices over the grid: input and output are at row block `t`, the bias row is whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole rectified bias layer. -/
theorem flushed_eq (c : Dev nD) (t : Fin cfg5.N) :
    (dat5 V c).flushed 2 t = ((cfg5.win 2).blk t).view.read (Elt Ideal)
      (reluBias (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  rw [pay1]
  obtain ⟨e0, e1, e2, e3, e4, e5⟩ := idx_facts t
  funext j
  show reluBias (iblk5 V c 0 t) (iblk5 V c 1 t) j
    = reluBias (V c (Pipeline.arrRef spec5 0)) (V c (Pipeline.arrRef spec5 1)) (((cfg5.win 2).blk t).view.emb j)
  refine reluBias_at _ _ _ _ j _ ?_ ?_
  · show V c (Pipeline.arrRef spec5 0) (((cfg5.win 0).blk t).view.emb j) = _
    refine congrArg _ (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  · show V c (Pipeline.arrRef spec5 1) (((cfg5.win 1).blk t).view.emb (ix2 (0 : Fin 1) (c1 j))) = _
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 128 + 1 * (j 1).val = win5_2.index t (1 : Fin 2) * 128 + 1 * (j 1).val
      omega

/-- An index of the output array is in point `t`'s block iff each coordinate is in the block's range. -/
theorem mem_blk (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v123).slice (win5_2.rect t)).set ↔ _
  rw [View.set_slice_whole, Rect.mem_set_unit]
  exact Iff.rfl

/-- Row `r` lies in the block of point `r / 5000`. -/
theorem cover (i : S50000x128.Idx) :
    ∃ t : Fin cfg5.N, (cfg5.win 2).flush t = true ∧ i ∈ ((cfg5.win 2).blk t).view.set := by
  have hi0 : (i 0).val < 50000 := idx2_lt0 i
  have hi1 : (i 1).val < 128 := idx2_lt1 i
  have hN : grid5.N = 10 := N_5
  have ht : (i 0).val / 5000 < grid5.N := by rw [hN]; omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    omega

/-- The output array after the region: the whole rectified bias layer of the arrays the region found. -/
theorem final (c : Dev nD) :
    (dat5 V c).arrAt 2 cfg5.N = reluBias (V c (Pipeline.arrRef spec5 0)) (V c (Pipeline.arrRef spec5 1)) :=
  (dat5 V c).arrAt_eq_of_cover 2 _ (fun t _ => flushed_eq V c t) (cover)

end Cert.KernelIdeal.Relu5

end
-- ==== Proof.Stages.lean ====
/-
  The three stretches of host operations that the two programs share, each as one function of its operands, for any
  float model.  `agg`: an index below zero is moved up by the node count; the rows of `H` at the source indices are
  gathered, every gathered row is multiplied by its edge's normalisation factor (a column broadcast along the row), and
  the products are summed per destination node into an array of zeros.  `pool`: the node rows are summed per graph into
  zeros and every graph's row is divided by the graph's node count (the count of ones summed per graph, at least one).
  `head`: the pooled rows times the classifier weight plus the bias laid along every row.
-/
import proofs.«105511_j64080912056839_2_alg».proof.Proof.Gen.KernelIdeal

noncomputable section

namespace Cert.KernelIdeal.Stages

open Idealize.ShloMosaic Cert.KernelIdeal
open Cert.KernelIdeal.Facts₀

variable {F : FTy → Type} [FloatOps F]

/-- Gather along the source indices, scale by the edge factors, sum per destination node. -/
def agg (src dst : (⟨S850000, .i32⟩ : BufTy).Contents (Elt F)) (nrm : (⟨S850000x1, .f32⟩ : BufTy).Contents (Elt F))
    (H : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 H
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1 nrm))

/-- The mean of the node rows of each graph. -/
def pool (gid : (⟨S50000, .i32⟩ : BufTy).Contents (Elt F)) (X : (⟨S50000x128, .f32⟩ : BufTy).Contents (Elt F)) :
    (⟨S512x128, .f32⟩ : BufTy).Contents (Elt F) :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 gid) X)
    (broadcastInDim S512x128 ![0, 1] bcast_S512x1_S512x128_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 gid)
            (broadcastInDim S50000 ![] bcast_S_S50000 (constant S_ .f32 0x3F800000#32)))
          (broadcastInDim S512 ![] bcast_S_S512 (constant S_ .f32 0x3F800000#32)))))

/-- The classifier: pooled rows times the weight, plus the bias along every row. -/
def head (G : (⟨S512x128, .f32⟩ : BufTy).Contents (Elt F)) (w : (⟨S128x16, .f32⟩ : BufTy).Contents (Elt F))
    (b : (⟨S16, .f32⟩ : BufTy).Contents (Elt F)) : (⟨S512x16, .f32⟩ : BufTy).Contents (Elt F) :=
  addf (Host.dotGeneral dot_S512x128_S128x16_S512x16_1_0_0_1_n_n none G w)
    (broadcastInDim S512x16 ![0, 1] bcast_S1x16_S512x16_0_1 (broadcastInDim S1x16 ![1] bcast_S16_S1x16_1 b))

end Cert.KernelIdeal.Stages

end
-- ==== Proof.Stretch.lean ====
/-
  Each stretch of host operations between two regions, read over an ARBITRARY valuation `W` of the buffers it starts
  from: the buffer it leaves the aggregated array in holds `agg` of the source indices, destination indices, edge factors
  and the previous region's product as `W` has them; the next weight is a slab of the stacked weights; the next bias is a
  row of the stacked biases laid out as a one-row array; and the buffers no operation of the stretch writes keep `W`'s
  contents.  The last stretch leaves the pooled means and the classifier's result.
-/
import proofs.«105511_j64080912056839_2_alg».proof.Proof.Gen.KernelIdeal.Launch
import proofs.«105511_j64080912056839_2_alg».proof.Proof.Stages
import proofs.«105511_j64080912056839_2_alg».proof.Proof.RefRead
import proofs.«105511_j64080912056839_2_alg».proof.Proof.LibBiasRow
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen Cert.KernelIdeal.Stages Cert.Dense

variable (W : Valuation τ sig (Elt Ideal))

/-! ## Stretch 1 -/

theorem s1_summed : after (hostOps1 (F := Ideal)) W (Proc.devRef .tc main_v44)
    = agg (F := Ideal) (W (Proc.devRef .tc main_v3)) (W (Proc.devRef .tc main_v6)) (W (Proc.devRef .tc main_v30)) (W (Proc.devRef .tc main_v31)) := by
  after_results_simp
  rfl

theorem s1_wgt : after (hostOps1 (F := Ideal)) W (Proc.devRef .tc main_v47) = Cert.ReferenceIdeal.Read.val_main_v51 (F := Ideal) (W (Proc.devRef .tc main_arg5)) := by
  after_results_simp
  rfl

theorem s1_brow : after (hostOps1 (F := Ideal)) W (Proc.devRef .tc main_v48) = row (W (Proc.devRef .tc main_arg4)) := by
  after_results_simp
  exact shapeCast_row _ _

theorem s1_zero : after (hostOps1 (F := Ideal)) W (Proc.devRef .tc main_v45) = Cert.ReferenceIdeal.Read.val_main_v48 (F := Ideal) := by
  after_results_simp
  rfl

theorem s1_keep : after (hostOps1 (F := Ideal)) W (Proc.devRef .tc main_v3) = W (Proc.devRef .tc main_v3)
    ∧ after (hostOps1 (F := Ideal)) W (Proc.devRef .tc main_v6) = W (Proc.devRef .tc main_v6)
    ∧ after (hostOps1 (F := Ideal)) W (Proc.devRef .tc main_v30) = W (Proc.devRef .tc main_v30)
    ∧ after (hostOps1 (F := Ideal)) W (Proc.devRef .tc main_arg2) = W (Proc.devRef .tc main_arg2)
    ∧ after (hostOps1 (F := Ideal)) W (Proc.devRef .tc main_arg5) = W (Proc.devRef .tc main_arg5)
    ∧ after (hostOps1 (F := Ideal)) W (Proc.devRef .tc main_arg6) = W (Proc.devRef .tc main_arg6)
    ∧ after (hostOps1 (F := Ideal)) W (Proc.devRef .tc main_arg7) = W (Proc.devRef .tc main_arg7)
    ∧ after (hostOps1 (F := Ideal)) W (Proc.devRef .tc main_arg8) = W (Proc.devRef .tc main_arg8) := by
  refine ⟨?_, ?_, ?_, ?_, ?_, ?_, ?_, ?_⟩ <;> after_results_simp

/-! ## Stretch 2 -/

theorem s2_summed : after (hostOps2 (F := Ideal)) W (Proc.devRef .tc main_v62)
    = agg (F := Ideal) (W (Proc.devRef .tc main_v3)) (W (Proc.devRef .tc main_v6)) (W (Proc.devRef .tc main_v30)) (W (Proc.devRef .tc main_v49_1)) := by
  after_results_simp
  rfl

theorem s2_wgt : after (hostOps2 (F := Ideal)) W (Proc.devRef .tc main_v66) = Cert.ReferenceIdeal.Read.val_main_v74 (F := Ideal) (W (Proc.devRef .tc main_arg5)) := by
  after_results_simp
  rfl

theorem s2_brow : after (hostOps2 (F := Ideal)) W (Proc.devRef .tc main_v67) = row (Cert.ReferenceIdeal.Read.val_main_v53 (F := Ideal) (W (Proc.devRef .tc main_arg6))) := by
  after_results_simp
  exact shapeCast_row (Cert.ReferenceIdeal.Read.val_main_v53 (F := Ideal) (W (Proc.devRef .tc main_arg6))) _

theorem s2_keep : after (hostOps2 (F := Ideal)) W (Proc.devRef .tc main_v3) = W (Proc.devRef .tc main_v3)
    ∧ after (hostOps2 (F := Ideal)) W (Proc.devRef .tc main_v6) = W (Proc.devRef .tc main_v6)
    ∧ after (hostOps2 (F := Ideal)) W (Proc.devRef .tc main_v30) = W (Proc.devRef .tc main_v30)
    ∧ after (hostOps2 (F := Ideal)) W (Proc.devRef .tc main_arg2) = W (Proc.devRef .tc main_arg2)
    ∧ after (hostOps2 (F := Ideal)) W (Proc.devRef .tc main_arg5) = W (Proc.devRef .tc main_arg5)
    ∧ after (hostOps2 (F := Ideal)) W (Proc.devRef .tc main_arg6) = W (Proc.devRef .tc main_arg6)
    ∧ after (hostOps2 (F := Ideal)) W (Proc.devRef .tc main_arg7) = W (Proc.devRef .tc main_arg7)
    ∧ after (hostOps2 (F := Ideal)) W (Proc.devRef .tc main_arg8) = W (Proc.devRef .tc main_arg8) := by
  refine ⟨?_, ?_, ?_, ?_, ?_, ?_, ?_, ?_⟩ <;> after_results_simp

/-! ## Stretch 3 -/

theorem s3_summed : after (hostOps3 (F := Ideal)) W (Proc.devRef .tc main_v81)
    = agg (F := Ideal) (W (Proc.devRef .tc main_v3)) (W (Proc.devRef .tc main_v6)) (W (Proc.devRef .tc main_v30)) (W (Proc.devRef .tc main_v68_1)) := by
  after_results_simp
  rfl

theorem s3_wgt : after (hostOps3 (F := Ideal)) W (Proc.devRef .tc main_v85) = Cert.ReferenceIdeal.Read.val_main_v97 (F := Ideal) (W (Proc.devRef .tc main_arg5)) := by
  after_results_simp
  rfl

theorem s3_brow : after (hostOps3 (F := Ideal)) W (Proc.devRef .tc main_v86) = row (Cert.ReferenceIdeal.Read.val_main_v76 (F := Ideal) (W (Proc.devRef .tc main_arg6))) := by
  after_results_simp
  exact shapeCast_row (Cert.ReferenceIdeal.Read.val_main_v76 (F := Ideal) (W (Proc.devRef .tc main_arg6))) _

theorem s3_keep : after (hostOps3 (F := Ideal)) W (Proc.devRef .tc main_v3) = W (Proc.devRef .tc main_v3)
    ∧ after (hostOps3 (F := Ideal)) W (Proc.devRef .tc main_v6) = W (Proc.devRef .tc main_v6)
    ∧ after (hostOps3 (F := Ideal)) W (Proc.devRef .tc main_v30) = W (Proc.devRef .tc main_v30)
    ∧ after (hostOps3 (F := Ideal)) W (Proc.devRef .tc main_arg2) = W (Proc.devRef .tc main_arg2)
    ∧ after (hostOps3 (F := Ideal)) W (Proc.devRef .tc main_arg5) = W (Proc.devRef .tc main_arg5)
    ∧ after (hostOps3 (F := Ideal)) W (Proc.devRef .tc main_arg6) = W (Proc.devRef .tc main_arg6)
    ∧ after (hostOps3 (F := Ideal)) W (Proc.devRef .tc main_arg7) = W (Proc.devRef .tc main_arg7)
    ∧ after (hostOps3 (F := Ideal)) W (Proc.devRef .tc main_arg8) = W (Proc.devRef .tc main_arg8) := by
  refine ⟨?_, ?_, ?_, ?_, ?_, ?_, ?_, ?_⟩ <;> after_results_simp

/-! ## Stretch 4 -/

theorem s4_summed : after (hostOps4 (F := Ideal)) W (Proc.devRef .tc main_v100)
    = agg (F := Ideal) (W (Proc.devRef .tc main_v3)) (W (Proc.devRef .tc main_v6)) (W (Proc.devRef .tc main_v30)) (W (Proc.devRef .tc main_v87_1)) := by
  after_results_simp
  rfl

theorem s4_wgt : after (hostOps4 (F := Ideal)) W (Proc.devRef .tc main_v104) = Cert.ReferenceIdeal.Read.val_main_v120 (F := Ideal) (W (Proc.devRef .tc main_arg5)) := by
  after_results_simp
  rfl

theorem s4_brow : after (hostOps4 (F := Ideal)) W (Proc.devRef .tc main_v105) = row (Cert.ReferenceIdeal.Read.val_main_v99 (F := Ideal) (W (Proc.devRef .tc main_arg6))) := by
  after_results_simp
  exact shapeCast_row (Cert.ReferenceIdeal.Read.val_main_v99 (F := Ideal) (W (Proc.devRef .tc main_arg6))) _

theorem s4_keep : after (hostOps4 (F := Ideal)) W (Proc.devRef .tc main_v3) = W (Proc.devRef .tc main_v3)
    ∧ after (hostOps4 (F := Ideal)) W (Proc.devRef .tc main_v6) = W (Proc.devRef .tc main_v6)
    ∧ after (hostOps4 (F := Ideal)) W (Proc.devRef .tc main_v30) = W (Proc.devRef .tc main_v30)
    ∧ after (hostOps4 (F := Ideal)) W (Proc.devRef .tc main_arg2) = W (Proc.devRef .tc main_arg2)
    ∧ after (hostOps4 (F := Ideal)) W (Proc.devRef .tc main_arg5) = W (Proc.devRef .tc main_arg5)
    ∧ after (hostOps4 (F := Ideal)) W (Proc.devRef .tc main_arg6) = W (Proc.devRef .tc main_arg6)
    ∧ after (hostOps4 (F := Ideal)) W (Proc.devRef .tc main_arg7) = W (Proc.devRef .tc main_arg7)
    ∧ after (hostOps4 (F := Ideal)) W (Proc.devRef .tc main_arg8) = W (Proc.devRef .tc main_arg8) := by
  refine ⟨?_, ?_, ?_, ?_, ?_, ?_, ?_, ?_⟩ <;> after_results_simp

/-! ## Stretch 5 -/

theorem s5_summed : after (hostOps5 (F := Ideal)) W (Proc.devRef .tc main_v119)
    = agg (F := Ideal) (W (Proc.devRef .tc main_v3)) (W (Proc.devRef .tc main_v6)) (W (Proc.devRef .tc main_v30)) (W (Proc.devRef .tc main_v106_1)) := by
  after_results_simp
  rfl

theorem s5_brow : after (hostOps5 (F := Ideal)) W (Proc.devRef .tc main_v122) = row (Cert.ReferenceIdeal.Read.val_main_v122 (F := Ideal) (W (Proc.devRef .tc main_arg6))) := by
  after_results_simp
  exact shapeCast_row (Cert.ReferenceIdeal.Read.val_main_v122 (F := Ideal) (W (Proc.devRef .tc main_arg6))) _

theorem s5_keep : after (hostOps5 (F := Ideal)) W (Proc.devRef .tc main_v3) = W (Proc.devRef .tc main_v3)
    ∧ after (hostOps5 (F := Ideal)) W (Proc.devRef .tc main_v6) = W (Proc.devRef .tc main_v6)
    ∧ after (hostOps5 (F := Ideal)) W (Proc.devRef .tc main_v30) = W (Proc.devRef .tc main_v30)
    ∧ after (hostOps5 (F := Ideal)) W (Proc.devRef .tc main_arg2) = W (Proc.devRef .tc main_arg2)
    ∧ after (hostOps5 (F := Ideal)) W (Proc.devRef .tc main_arg5) = W (Proc.devRef .tc main_arg5)
    ∧ after (hostOps5 (F := Ideal)) W (Proc.devRef .tc main_arg6) = W (Proc.devRef .tc main_arg6)
    ∧ after (hostOps5 (F := Ideal)) W (Proc.devRef .tc main_arg7) = W (Proc.devRef .tc main_arg7)
    ∧ after (hostOps5 (F := Ideal)) W (Proc.devRef .tc main_arg8) = W (Proc.devRef .tc main_arg8) := by
  refine ⟨?_, ?_, ?_, ?_, ?_, ?_, ?_, ?_⟩ <;> after_results_simp

theorem s2_keep_prev : after (hostOps2 (F := Ideal)) W (Proc.devRef .tc main_v49_0) = W (Proc.devRef .tc main_v49_0) := by
  after_results_simp

theorem s3_keep_prev : after (hostOps3 (F := Ideal)) W (Proc.devRef .tc main_v68_0) = W (Proc.devRef .tc main_v68_0) := by
  after_results_simp

theorem s4_keep_prev : after (hostOps4 (F := Ideal)) W (Proc.devRef .tc main_v87_0) = W (Proc.devRef .tc main_v87_0) := by
  after_results_simp

/-! ## The last stretch -/

theorem s6_pool : after (hostOps6 (F := Ideal)) W (Proc.devRef .tc main_v135) = pool (F := Ideal) (W (Proc.devRef .tc main_arg2)) (W (Proc.devRef .tc main_v123)) := by
  after_results_simp
  rfl

theorem s6_head : after (hostOps6 (F := Ideal)) W (Proc.devRef .tc main_v139)
    = head (F := Ideal) (pool (F := Ideal) (W (Proc.devRef .tc main_arg2)) (W (Proc.devRef .tc main_v123))) (W (Proc.devRef .tc main_arg7)) (W (Proc.devRef .tc main_arg8)) := by
  after_results_simp
  rfl

end Cert.KernelIdeal.Stretch

end
-- ==== Proof.Prefix.lean ====
/-
  The edge factors, read through the three stretches of host operations before the first region, each over an ARBITRARY
  valuation `W` of the buffers the stretch starts from.  The first stretch builds the source and destination index
  vectors (the edge list's two rows, each followed by the node numbers for the self loops), the degree (ones summed per
  destination), the test "degree > 0" and the degree's inverse square root.  The second selects, per node, the inverse
  square root where the test holds and zero elsewhere.  The third gathers that per-node factor at every edge's source
  and at its destination (an index below zero moved up by the node count), multiplies the two, and lays the products
  out as a column.  Buffers a stretch does not write keep `W`'s contents.
-/
import proofs.«105511_j64080912056839_2_alg».proof.Proof.Gen.KernelIdeal.Launch
import proofs.«105511_j64080912056839_2_alg».proof.Proof.RefRead
import Idealize.ShloMosaic.Lib.StableHlo.Run

set_option maxRecDepth 16384

noncomputable section

namespace Cert.KernelIdeal.Prefix

open Idealize.ShloMosaic Idealize.ShloMosaic.TcCoe Idealize.ShloMosaic.StableHlo Idealize.SL.Sem
open Cert.KernelIdeal

section Forms
open Cert.KernelIdeal.Facts₀
variable {F : FTy → Type} [FloatOps F]

/-- Per node: the inverse square root of the degree where the degree is positive, zero elsewhere. -/
def dinvOf (gt : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select gt rs (broadcastInDim S50000 ![] bcast_S_S50000 (id z))

/-- The indices with those below zero moved up by the node count, as a column. -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Per edge: the per-node factor at the source times the per-node factor at the destination, as a column. -/
def nrmOf (d : (⟨S50000, .f32⟩ : BufTy).Contents (Elt F)) (s t : (⟨S850000, .i32⟩ : BufTy).Contents (Elt F)) :
    (⟨S850000x1, .f32⟩ : BufTy).Contents (Elt F) :=
  broadcastInDim S850000x1 ![0] bcast_S850000_S850000x1_0
    (mulf (Host.gather gather_S50000_S850000x1_S850000_n_0_n_n_0_1_1 d (wrapCol (F := F) s))
      (Host.gather gather_S50000_S850000x1_S850000_n_0_n_n_0_1_1 d (wrapCol (F := F) t)))

end Forms

open Cert.KernelIdeal.Gen

variable (W : Valuation τ sig (Elt Ideal))

/-! ## The first stretch -/
theorem p0_src : after (hostOps0 (F := Ideal)) W (Proc.devRef .tc main_v3) = Cert.ReferenceIdeal.Read.val_main_v3 (F := Ideal) (W (Proc.devRef .tc main_arg1)) := by
  after_results_simp
  rfl
theorem p0_dst : after (hostOps0 (F := Ideal)) W (Proc.devRef .tc main_v6) = Cert.ReferenceIdeal.Read.val_main_v6 (F := Ideal) (W (Proc.devRef .tc main_arg1)) := by
  after_results_simp
  rfl
theorem p0_gt : after (hostOps0 (F := Ideal)) W (Proc.devRef .tc main_v12) = Cert.ReferenceIdeal.Read.val_main_v12 (F := Ideal) (W (Proc.devRef .tc main_arg1)) := by
  after_results_simp
  rfl
theorem p0_rs : after (hostOps0 (F := Ideal)) W (Proc.devRef .tc main_v13) = Cert.ReferenceIdeal.Read.val_main_v13 (F := Ideal) (W (Proc.devRef .tc main_arg1)) := by
  after_results_simp
  rfl
theorem p0_zero : after (hostOps0 (F := Ideal)) W (Proc.devRef .tc main_cst_2) = Cert.ReferenceIdeal.Read.val_main_cst_2 (F := Ideal) := by
  after_results_simp
  rfl

/-! ## The second stretch -/
theorem p1_dinv : after (hostOps0_1 (F := Ideal)) W (Proc.devRef .tc main_v14)
    = dinvOf (F := Ideal) (W (Proc.devRef .tc main_v12)) (W (Proc.devRef .tc main_v13)) (W (Proc.devRef .tc main_cst_2)) := by
  after_results_simp
  rfl
theorem p1_keep : after (hostOps0_1 (F := Ideal)) W (Proc.devRef .tc main_v3) = W (Proc.devRef .tc main_v3)
    ∧ after (hostOps0_1 (F := Ideal)) W (Proc.devRef .tc main_v6) = W (Proc.devRef .tc main_v6) := by
  refine ⟨?_, ?_⟩ <;> after_results_simp

/-! ## The third stretch -/
theorem p2_nrm : after (hostOps0_2 (F := Ideal)) W (Proc.devRef .tc main_v30)
    = nrmOf (F := Ideal) (W (Proc.devRef .tc main_v14)) (W (Proc.devRef .tc main_v3)) (W (Proc.devRef .tc main_v6)) := by
  after_results_simp
  rfl

/-! ## The reference's edge factors in the same form -/
theorem ref_nrm (x1 : (⟨Cert.ReferenceIdeal.S2x800000, .i32⟩ : BufTy).Contents (Elt Ideal)) :
    Cert.ReferenceIdeal.Read.val_main_v38 (F := Ideal) x1
      = nrmOf (F := Ideal) (dinvOf (F := Ideal) (Cert.ReferenceIdeal.Read.val_main_v12 (F := Ideal) x1) (Cert.ReferenceIdeal.Read.val_main_v13 (F := Ideal) x1) (Cert.ReferenceIdeal.Read.val_main_cst_2 (F := Ideal)))
          (Cert.ReferenceIdeal.Read.val_main_v3 (F := Ideal) x1) (Cert.ReferenceIdeal.Read.val_main_v6 (F := Ideal) x1) := rfl

end Cert.KernelIdeal.Prefix

end
-- ==== Proof.RefStages.lean ====
/-
  The reference program stage by stage.  Its generated reading names every operation's value; here each value that the
  comparison needs is brought to one of five forms over earlier values: a matrix product `mm`, the rectified bias layer
  `reluBias`, the gather-scale-sum `agg`, the per-graph mean `pool`, and the classifier `head`.  The host's dot product
  with the left operand's columns contracted against the right operand's rows is the matrix product; the host's bias
  (the vector broadcast to one row, that row to every row), sum and maximum with a broadcast zero is the rectified bias
  layer over the vector laid out as a row; the other three forms are the reference's own operations, term for term.
-/
import proofs.«105511_j64080912056839_2_alg».proof.Proof.RefRead
import proofs.«105511_j64080912056839_2_alg».proof.Proof.Stages
import proofs.«105511_j64080912056839_2_alg».proof.Proof.LibBiasRow

set_option maxRecDepth 16384

noncomputable section

namespace Cert.ReferenceIdeal.Stagewise

open Idealize.ShloMosaic Cert.Dense Cert.BiasRow
open Cert.KernelIdeal.Stages (agg pool head)

variable (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal))
  (x7 : (⟨Cert.ReferenceIdeal.S128x16, .f32⟩ : BufTy).Contents (Elt Ideal)) (x8 : (⟨Cert.ReferenceIdeal.S16, .f32⟩ : BufTy).Contents (Elt Ideal))

/-- The first product. -/
theorem hw0 : (Cert.ReferenceIdeal.Read.val_main_v30 (F := Ideal) x0 x3) = mm x0 x3 :=
  hostDot_eq_mm Cert.ReferenceIdeal.dot_S50000x128_S128x128_S50000x128_1_0_0_1_n_n rfl rfl rfl rfl rfl rfl none _ _

/-- Aggregation 0. -/
theorem sum0 : (Cert.ReferenceIdeal.Read.val_main_v43 (F := Ideal) x0 x1 x3) = agg (F := Ideal) (Cert.ReferenceIdeal.Read.val_main_v3 (F := Ideal) x1) (Cert.ReferenceIdeal.Read.val_main_v6 (F := Ideal) x1) (Cert.ReferenceIdeal.Read.val_main_v38 (F := Ideal) x1) (Cert.ReferenceIdeal.Read.val_main_v30 (F := Ideal) x0 x3) := rfl

/-- Aggregation 1. -/
theorem sum1 : (Cert.ReferenceIdeal.Read.val_main_v67 (F := Ideal) x0 x1 x3 x4 x5) = agg (F := Ideal) (Cert.ReferenceIdeal.Read.val_main_v3 (F := Ideal) x1) (Cert.ReferenceIdeal.Read.val_main_v6 (F := Ideal) x1) (Cert.ReferenceIdeal.Read.val_main_v38 (F := Ideal) x1) (Cert.ReferenceIdeal.Read.val_main_v54 (F := Ideal) x0 x1 x3 x4 x5) := rfl

/-- Aggregation 2. -/
theorem sum2 : (Cert.ReferenceIdeal.Read.val_main_v90 (F := Ideal) x0 x1 x3 x4 x5 x6) = agg (F := Ideal) (Cert.ReferenceIdeal.Read.val_main_v3 (F := Ideal) x1) (Cert.ReferenceIdeal.Read.val_main_v6 (F := Ideal) x1) (Cert.ReferenceIdeal.Read.val_main_v38 (F := Ideal) x1) (Cert.ReferenceIdeal.Read.val_main_v77 (F := Ideal) x0 x1 x3 x4 x5 x6) := rfl

/-- Aggregation 3. -/
theorem sum3 : (Cert.ReferenceIdeal.Read.val_main_v113 (F := Ideal) x0 x1 x3 x4 x5 x6) = agg (F := Ideal) (Cert.ReferenceIdeal.Read.val_main_v3 (F := Ideal) x1) (Cert.ReferenceIdeal.Read.val_main_v6 (F := Ideal) x1) (Cert.ReferenceIdeal.Read.val_main_v38 (F := Ideal) x1) (Cert.ReferenceIdeal.Read.val_main_v100 (F := Ideal) x0 x1 x3 x4 x5 x6) := rfl

/-- Aggregation 4. -/
theorem sum4 : (Cert.ReferenceIdeal.Read.val_main_v136 (F := Ideal) x0 x1 x3 x4 x5 x6) = agg (F := Ideal) (Cert.ReferenceIdeal.Read.val_main_v3 (F := Ideal) x1) (Cert.ReferenceIdeal.Read.val_main_v6 (F := Ideal) x1) (Cert.ReferenceIdeal.Read.val_main_v38 (F := Ideal) x1) (Cert.ReferenceIdeal.Read.val_main_v123 (F := Ideal) x0 x1 x3 x4 x5 x6) := rfl

/-- Layer 0's activation. -/
theorem act0 : (Cert.ReferenceIdeal.Read.val_main_v47 (F := Ideal) x0 x1 x3 x4) = reluBias (Cert.ReferenceIdeal.Read.val_main_v43 (F := Ideal) x0 x1 x3) (row x4) :=
  hostReluBias (Cert.ReferenceIdeal.Read.val_main_v43 (F := Ideal) x0 x1 x3) x4 _ _ _

/-- Layer 1's activation. -/
theorem act1 : (Cert.ReferenceIdeal.Read.val_main_v71 (F := Ideal) x0 x1 x3 x4 x5 x6) = reluBias (Cert.ReferenceIdeal.Read.val_main_v67 (F := Ideal) x0 x1 x3 x4 x5) (row (Cert.ReferenceIdeal.Read.val_main_v53 (F := Ideal) x6)) :=
  hostReluBias (Cert.ReferenceIdeal.Read.val_main_v67 (F := Ideal) x0 x1 x3 x4 x5) (Cert.ReferenceIdeal.Read.val_main_v53 (F := Ideal) x6) _ _ _

/-- Layer 2's activation. -/
theorem act2 : (Cert.ReferenceIdeal.Read.val_main_v94 (F := Ideal) x0 x1 x3 x4 x5 x6) = reluBias (Cert.ReferenceIdeal.Read.val_main_v90 (F := Ideal) x0 x1 x3 x4 x5 x6) (row (Cert.ReferenceIdeal.Read.val_main_v76 (F := Ideal) x6)) :=
  hostReluBias (Cert.ReferenceIdeal.Read.val_main_v90 (F := Ideal) x0 x1 x3 x4 x5 x6) (Cert.ReferenceIdeal.Read.val_main_v76 (F := Ideal) x6) _ _ _

/-- Layer 3's activation. -/
theorem act3 : (Cert.ReferenceIdeal.Read.val_main_v117 (F := Ideal) x0 x1 x3 x4 x5 x6) = reluBias (Cert.ReferenceIdeal.Read.val_main_v113 (F := Ideal) x0 x1 x3 x4 x5 x6) (row (Cert.ReferenceIdeal.Read.val_main_v99 (F := Ideal) x6)) :=
  hostReluBias (Cert.ReferenceIdeal.Read.val_main_v113 (F := Ideal) x0 x1 x3 x4 x5 x6) (Cert.ReferenceIdeal.Read.val_main_v99 (F := Ideal) x6) _ _ _

/-- Layer 4's activation. -/
theorem act4 : (Cert.ReferenceIdeal.Read.val_main_v140 (F := Ideal) x0 x1 x3 x4 x5 x6) = reluBias (Cert.ReferenceIdeal.Read.val_main_v136 (F := Ideal) x0 x1 x3 x4 x5 x6) (row (Cert.ReferenceIdeal.Read.val_main_v122 (F := Ideal) x6)) :=
  hostReluBias (Cert.ReferenceIdeal.Read.val_main_v136 (F := Ideal) x0 x1 x3 x4 x5 x6) (Cert.ReferenceIdeal.Read.val_main_v122 (F := Ideal) x6) _ _ _

/-- Product 1: (activation + residual) times the weight slab. -/
theorem hw1 : (Cert.ReferenceIdeal.Read.val_main_v54 (F := Ideal) x0 x1 x3 x4 x5) = mm (addf (F := Ideal) (φ := .f32) (Cert.ReferenceIdeal.Read.val_main_v47 (F := Ideal) x0 x1 x3 x4) (Cert.ReferenceIdeal.Read.val_main_v48 (F := Ideal))) (Cert.ReferenceIdeal.Read.val_main_v51 (F := Ideal) x5) :=
  hostDot_eq_mm Cert.ReferenceIdeal.dot_S50000x128_S128x128_S50000x128_1_0_0_1_n_n rfl rfl rfl rfl rfl rfl none _ _

/-- Product 2: (activation + residual) times the weight slab. -/
theorem hw2 : (Cert.ReferenceIdeal.Read.val_main_v77 (F := Ideal) x0 x1 x3 x4 x5 x6) = mm (addf (F := Ideal) (φ := .f32) (Cert.ReferenceIdeal.Read.val_main_v71 (F := Ideal) x0 x1 x3 x4 x5 x6) (Cert.ReferenceIdeal.Read.val_main_v47 (F := Ideal) x0 x1 x3 x4)) (Cert.ReferenceIdeal.Read.val_main_v74 (F := Ideal) x5) :=
  hostDot_eq_mm Cert.ReferenceIdeal.dot_S50000x128_S128x128_S50000x128_1_0_0_1_n_n rfl rfl rfl rfl rfl rfl none _ _

/-- Product 3: (activation + residual) times the weight slab. -/
theorem hw3 : (Cert.ReferenceIdeal.Read.val_main_v100 (F := Ideal) x0 x1 x3 x4 x5 x6) = mm (addf (F := Ideal) (φ := .f32) (Cert.ReferenceIdeal.Read.val_main_v94 (F := Ideal) x0 x1 x3 x4 x5 x6) (Cert.ReferenceIdeal.Read.val_main_v71 (F := Ideal) x0 x1 x3 x4 x5 x6)) (Cert.ReferenceIdeal.Read.val_main_v97 (F := Ideal) x5) :=
  hostDot_eq_mm Cert.ReferenceIdeal.dot_S50000x128_S128x128_S50000x128_1_0_0_1_n_n rfl rfl rfl rfl rfl rfl none _ _

/-- Product 4: (activation + residual) times the weight slab. -/
theorem hw4 : (Cert.ReferenceIdeal.Read.val_main_v123 (F := Ideal) x0 x1 x3 x4 x5 x6) = mm (addf (F := Ideal) (φ := .f32) (Cert.ReferenceIdeal.Read.val_main_v117 (F := Ideal) x0 x1 x3 x4 x5 x6) (Cert.ReferenceIdeal.Read.val_main_v94 (F := Ideal) x0 x1 x3 x4 x5 x6)) (Cert.ReferenceIdeal.Read.val_main_v120 (F := Ideal) x5) :=
  hostDot_eq_mm Cert.ReferenceIdeal.dot_S50000x128_S128x128_S50000x128_1_0_0_1_n_n rfl rfl rfl rfl rfl rfl none _ _

/-- The pooled means. -/
theorem pooled : (Cert.ReferenceIdeal.Read.val_main_v152 (F := Ideal) x0 x1 x2 x3 x4 x5 x6) = pool (F := Ideal) x2 (Cert.ReferenceIdeal.Read.val_main_v140 (F := Ideal) x0 x1 x3 x4 x5 x6) := rfl

/-- The classifier's result. -/
theorem classified : (Cert.ReferenceIdeal.Read.val_main_v156 (F := Ideal) x0 x1 x2 x3 x4 x5 x6 x7 x8) = head (F := Ideal) (Cert.ReferenceIdeal.Read.val_main_v152 (F := Ideal) x0 x1 x2 x3 x4 x5 x6) x7 x8 := rfl

end Cert.ReferenceIdeal.Stagewise

end
-- ==== Proof.Chain.lean ====
/-
  The kernel program's buffers, boundary by boundary, against the reference's stages.  At the entry of the first region the
  source and destination index vectors, the edge-factor column and the arguments hold what the reference computes for
  them (the two programs start with the same operations).  Then, in turn: a region's output arrays are the whole-array
  matrix product / rectified bias layer of the arrays it found; the following host stretch gathers, scales and sums the
  product exactly as the reference does; buffers that a segment does not write keep their contents.  So each of the
  kernel's intermediate arrays holds the reference's stage of the same name, and so do the two results.
-/
import proofs.«105511_j64080912056839_2_alg».proof.Proof.Gen.KernelIdeal.Frame
import proofs.«105511_j64080912056839_2_alg».proof.Proof.Dense0
import proofs.«105511_j64080912056839_2_alg».proof.Proof.Fused1
import proofs.«105511_j64080912056839_2_alg».proof.Proof.Fused2
import proofs.«105511_j64080912056839_2_alg».proof.Proof.Fused3
import proofs.«105511_j64080912056839_2_alg».proof.Proof.Fused4
import proofs.«105511_j64080912056839_2_alg».proof.Proof.Relu5
import proofs.«105511_j64080912056839_2_alg».proof.Proof.Stretch
import proofs.«105511_j64080912056839_2_alg».proof.Proof.Prefix
import proofs.«105511_j64080912056839_2_alg».proof.Proof.RefStages

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.KernelIdeal.Stages Cert.Dense Cert.BiasRow

variable (m : (ℓ : Loc nD τ sig) → Buf (Elt Ideal) ℓ) (ρ : Dev nD → PrngReg) (c : Dev nD)

/-! ## The arguments as launched -/
abbrev X0 : (⟨S50000x128, .f32⟩ : BufTy).Contents (Elt Ideal) := m ((c.tc : Thread nD τ).loc main_arg0)
abbrev X1 : (⟨S2x800000, .i32⟩ : BufTy).Contents (Elt Ideal) := m ((c.tc : Thread nD τ).loc main_arg1)
abbrev X2 : (⟨S50000, .i32⟩ : BufTy).Contents (Elt Ideal) := m ((c.tc : Thread nD τ).loc main_arg2)
abbrev X3 : (⟨S128x128, .f32⟩ : BufTy).Contents (Elt Ideal) := m ((c.tc : Thread nD τ).loc main_arg3)
abbrev X4 : (⟨S128, .f32⟩ : BufTy).Contents (Elt Ideal) := m ((c.tc : Thread nD τ).loc main_arg4)
abbrev X5 : (⟨S4x128x128, .f32⟩ : BufTy).Contents (Elt Ideal) := m ((c.tc : Thread nD τ).loc main_arg5)
abbrev X6 : (⟨S4x128, .f32⟩ : BufTy).Contents (Elt Ideal) := m ((c.tc : Thread nD τ).loc main_arg6)
abbrev X7 : (⟨S128x16, .f32⟩ : BufTy).Contents (Elt Ideal) := m ((c.tc : Thread nD τ).loc main_arg7)
abbrev X8 : (⟨S16, .f32⟩ : BufTy).Contents (Elt Ideal) := m ((c.tc : Thread nD τ).loc main_arg8)

/-- What every later stretch reads besides the previous region's outputs: the index vectors, the edge factors and five
    arguments, at the reference's values. -/
structure Carry (W : Valuation τ sig (Elt Ideal)) : Prop where
  src : W (Proc.devRef .tc main_v3) = (Cert.ReferenceIdeal.Read.val_main_v3 (F := Ideal) (X1 m c))
  dst : W (Proc.devRef .tc main_v6) = (Cert.ReferenceIdeal.Read.val_main_v6 (F := Ideal) (X1 m c))
  nrm : W (Proc.devRef .tc main_v30) = (Cert.ReferenceIdeal.Read.val_main_v38 (F := Ideal) (X1 m c))
  a2 : W (Proc.devRef .tc main_arg2) = X2 m c
  a5 : W (Proc.devRef .tc main_arg5) = X5 m c
  a6 : W (Proc.devRef .tc main_arg6) = X6 m c
  a7 : W (Proc.devRef .tc main_arg7) = X7 m c
  a8 : W (Proc.devRef .tc main_arg8) = X8 m c

theorem agg_congr {s s' d d' : (⟨S850000, .i32⟩ : BufTy).Contents (Elt Ideal)} {n n' : (⟨S850000x1, .f32⟩ : BufTy).Contents (Elt Ideal)}
    {H H' : (⟨S50000x128, .f32⟩ : BufTy).Contents (Elt Ideal)} (hs : s = s') (hd : d = d') (hn : n = n') (hH : H = H') :
    agg (F := Ideal) s d n H = agg (F := Ideal) s' d' n' H' := by subst hs hd hn hH; rfl

/-! ## Up to the first region -/
theorem pre_src : W3 m ρ c (Proc.devRef .tc main_v3) = (Cert.ReferenceIdeal.Read.val_main_v3 (F := Ideal) (X1 m c)) := by
  show after hostOps0_2 (after hostOps0_1 (after hostOps0 (W0 m ρ c))) (Proc.devRef .tc main_v3) = _
  after_results_simp
  rfl
theorem pre_dst : W3 m ρ c (Proc.devRef .tc main_v6) = (Cert.ReferenceIdeal.Read.val_main_v6 (F := Ideal) (X1 m c)) := by
  show after hostOps0_2 (after hostOps0_1 (after hostOps0 (W0 m ρ c))) (Proc.devRef .tc main_v6) = _
  after_results_simp
  rfl
theorem congr3 {α β γ δ : Type} (f : α → β → γ → δ) {a a' : α} {b b' : β} {e e' : γ} (ha : a = a') (hb : b = b') (he : e = e') :
    f a b e = f a' b' e' := by subst ha hb he; rfl

theorem pre_nrm : W3 m ρ c (Proc.devRef .tc main_v30) = (Cert.ReferenceIdeal.Read.val_main_v38 (F := Ideal) (X1 m c)) := by
  have h14 : W2 m ρ c (Proc.devRef .tc main_v14)
      = Prefix.dinvOf (F := Ideal) (Cert.ReferenceIdeal.Read.val_main_v12 (F := Ideal) (X1 m c)) (Cert.ReferenceIdeal.Read.val_main_v13 (F := Ideal) (X1 m c)) (Cert.ReferenceIdeal.Read.val_main_cst_2 (F := Ideal)) :=
    (Prefix.p1_dinv (W1 m ρ c)).trans
      (congr3 (Prefix.dinvOf (F := Ideal)) (Prefix.p0_gt (W0 m ρ c)) (Prefix.p0_rs (W0 m ρ c)) (Prefix.p0_zero (W0 m ρ c)))
  have h3 : W2 m ρ c (Proc.devRef .tc main_v3) = (Cert.ReferenceIdeal.Read.val_main_v3 (F := Ideal) (X1 m c)) := (Prefix.p1_keep (W1 m ρ c)).1.trans (Prefix.p0_src (W0 m ρ c))
  have h6 : W2 m ρ c (Proc.devRef .tc main_v6) = (Cert.ReferenceIdeal.Read.val_main_v6 (F := Ideal) (X1 m c)) := (Prefix.p1_keep (W1 m ρ c)).2.trans (Prefix.p0_dst (W0 m ρ c))
  exact (Prefix.p2_nrm (W2 m ρ c)).trans ((congr3 (Prefix.nrmOf (F := Ideal)) h14 h3 h6).trans (Prefix.ref_nrm (X1 m c)).symm)
theorem pre_a2 : W3 m ρ c (Proc.devRef .tc main_arg2) = X2 m c := by
  show after hostOps0_2 (after hostOps0_1 (after hostOps0 (W0 m ρ c))) (Proc.devRef .tc main_arg2) = _
  after_results_simp
theorem pre_a5 : W3 m ρ c (Proc.devRef .tc main_arg5) = X5 m c := by
  show after hostOps0_2 (after hostOps0_1 (after hostOps0 (W0 m ρ c))) (Proc.devRef .tc main_arg5) = _
  after_results_simp
theorem pre_a6 : W3 m ρ c (Proc.devRef .tc main_arg6) = X6 m c := by
  show after hostOps0_2 (after hostOps0_1 (after hostOps0 (W0 m ρ c))) (Proc.devRef .tc main_arg6) = _
  after_results_simp
theorem pre_a7 : W3 m ρ c (Proc.devRef .tc main_arg7) = X7 m c := by
  show after hostOps0_2 (after hostOps0_1 (after hostOps0 (W0 m ρ c))) (Proc.devRef .tc main_arg7) = _
  after_results_simp
theorem pre_a8 : W3 m ρ c (Proc.devRef .tc main_arg8) = X8 m c := by
  show after hostOps0_2 (after hostOps0_1 (after hostOps0 (W0 m ρ c))) (Proc.devRef .tc main_arg8) = _
  after_results_simp
theorem pre_a0 : W3 m ρ c (Proc.devRef .tc main_arg0) = X0 m c := by
  show after hostOps0_2 (after hostOps0_1 (after hostOps0 (W0 m ρ c))) (Proc.devRef .tc main_arg0) = _
  after_results_simp
theorem pre_a3 : W3 m ρ c (Proc.devRef .tc main_arg3) = X3 m c := by
  show after hostOps0_2 (after hostOps0_1 (after hostOps0 (W0 m ρ c))) (Proc.devRef .tc main_arg3) = _
  after_results_simp
theorem pre_a4 : W3 m ρ c (Proc.devRef .tc main_arg4) = X4 m c := by
  show after hostOps0_2 (after hostOps0_1 (after hostOps0 (W0 m ρ c))) (Proc.devRef .tc main_arg4) = _
  after_results_simp

theorem carry3 : Carry m c (W3 m ρ c) := ⟨pre_src m ρ c, pre_dst m ρ c, pre_nrm m ρ c, pre_a2 m ρ c, pre_a5 m ρ c, pre_a6 m ρ c, pre_a7 m ρ c, pre_a8 m ρ c⟩

/-! ## Region 0: the first product -/
theorem carry4 : Carry m c (W4 m ρ c) :=
  ⟨(W4_of_ne m ρ c main_v3 (by decide)).trans (carry3 m ρ c).src,
   (W4_of_ne m ρ c main_v6 (by decide)).trans (carry3 m ρ c).dst,
   (W4_of_ne m ρ c main_v30 (by decide)).trans (carry3 m ρ c).nrm,
   (W4_of_ne m ρ c main_arg2 (by decide)).trans (carry3 m ρ c).a2,
   (W4_of_ne m ρ c main_arg5 (by decide)).trans (carry3 m ρ c).a5,
   (W4_of_ne m ρ c main_arg6 (by decide)).trans (carry3 m ρ c).a6,
   (W4_of_ne m ρ c main_arg7 (by decide)).trans (carry3 m ρ c).a7,
   (W4_of_ne m ρ c main_arg8 (by decide)).trans (carry3 m ρ c).a8⟩
theorem a4_4 : W4 m ρ c (Proc.devRef .tc main_arg4) = X4 m c := (W4_of_ne m ρ c main_arg4 (by decide)).trans (pre_a4 m ρ c)

theorem hw0 : (W4 m ρ c (Proc.devRef .tc main_v31) : (⟨S50000x128, .f32⟩ : BufTy).Contents (Elt Ideal)) = (Cert.ReferenceIdeal.Read.val_main_v30 (F := Ideal) (X0 m c) (X3 m c)) := by
  have h : (dat0 (V3 m ρ) c).arrAt 2 cfg0.N = mm (W3 m ρ c (Proc.devRef .tc main_arg0)) (W3 m ρ c (Proc.devRef .tc main_arg3)) := Dense0.final (V3 m ρ) c
  exact (W4_arr m ρ c 2).trans (h.trans ((congrArg₂ mm (pre_a0 m ρ c) (pre_a3 m ρ c)).trans (Cert.ReferenceIdeal.Stagewise.hw0 (X0 m c) (X3 m c)).symm))

/-! ## Stretch 1 and region 1 -/
theorem carry5 : Carry m c (W5 m ρ c) :=
  have k := Stretch.s1_keep (W4 m ρ c)
  ⟨k.1.trans (carry4 m ρ c).src, k.2.1.trans (carry4 m ρ c).dst, k.2.2.1.trans (carry4 m ρ c).nrm,
   k.2.2.2.1.trans (carry4 m ρ c).a2, k.2.2.2.2.1.trans (carry4 m ρ c).a5, k.2.2.2.2.2.1.trans (carry4 m ρ c).a6,
   k.2.2.2.2.2.2.1.trans (carry4 m ρ c).a7, k.2.2.2.2.2.2.2.trans (carry4 m ρ c).a8⟩

theorem sum1 : W5 m ρ c (Proc.devRef .tc main_v44) = (Cert.ReferenceIdeal.Read.val_main_v43 (F := Ideal) (X0 m c) (X1 m c) (X3 m c)) :=
  (Stretch.s1_summed (W4 m ρ c)).trans
    ((agg_congr (carry4 m ρ c).src (carry4 m ρ c).dst (carry4 m ρ c).nrm (hw0 m ρ c)).trans (Cert.ReferenceIdeal.Stagewise.sum0 (X0 m c) (X1 m c) (X3 m c)).symm)

theorem brow1 : W5 m ρ c (Proc.devRef .tc main_v48) = row (X4 m c) :=
  (Stretch.s1_brow (W4 m ρ c)).trans (congrArg row (a4_4 m ρ c))

theorem wgt1 : W5 m ρ c (Proc.devRef .tc main_v47) = (Cert.ReferenceIdeal.Read.val_main_v51 (F := Ideal) (X5 m c)) :=
  (Stretch.s1_wgt (W4 m ρ c)).trans (congrArg (fun z => Cert.ReferenceIdeal.Read.val_main_v51 (F := Ideal) z) (carry4 m ρ c).a5)

theorem res1 : W5 m ρ c (Proc.devRef .tc main_v45) = (Cert.ReferenceIdeal.Read.val_main_v48 (F := Ideal)) :=
  Stretch.s1_zero (W4 m ρ c)

theorem actForm1 : reluBias (W5 m ρ c (Proc.devRef .tc main_v44)) (W5 m ρ c (Proc.devRef .tc main_v48)) = (Cert.ReferenceIdeal.Read.val_main_v47 (F := Ideal) (X0 m c) (X1 m c) (X3 m c) (X4 m c)) :=
  (congrArg₂ reluBias (sum1 m ρ c) (brow1 m ρ c)).trans (Cert.ReferenceIdeal.Stagewise.act0 (X0 m c) (X1 m c) (X3 m c) (X4 m c)).symm

theorem act1 : W6 m ρ c (Proc.devRef .tc main_v49_0) = (Cert.ReferenceIdeal.Read.val_main_v47 (F := Ideal) (X0 m c) (X1 m c) (X3 m c) (X4 m c)) := by
  have h : (dat1 (V5 m ρ) c).arrAt 4 cfg1.N = reluBias (W5 m ρ c (Proc.devRef .tc main_v44)) (W5 m ρ c (Proc.devRef .tc main_v48)) := Fused1.final4 (V5 m ρ) c
  exact (W6_arr m ρ c 4).trans (h.trans (actForm1 m ρ c))

theorem hw1 : (W6 m ρ c (Proc.devRef .tc main_v49_1) : (⟨S50000x128, .f32⟩ : BufTy).Contents (Elt Ideal)) = (Cert.ReferenceIdeal.Read.val_main_v54 (F := Ideal) (X0 m c) (X1 m c) (X3 m c) (X4 m c) (X5 m c)) := by
  have h : (dat1 (V5 m ρ) c).arrAt 5 cfg1.N
      = mm (addf (F := Ideal) (φ := .f32) (reluBias (W5 m ρ c (Proc.devRef .tc main_v44)) (W5 m ρ c (Proc.devRef .tc main_v48))) (W5 m ρ c (Proc.devRef .tc main_v45)))
          (W5 m ρ c (Proc.devRef .tc main_v47)) := Fused1.final5 (V5 m ρ) c
  exact (W6_arr m ρ c 5).trans (h.trans ((congrArg₂ mm (congrArg₂ (addf (F := Ideal) (φ := .f32)) (actForm1 m ρ c) (res1 m ρ c)) (wgt1 m ρ c)).trans
    (Cert.ReferenceIdeal.Stagewise.hw1 (X0 m c) (X1 m c) (X3 m c) (X4 m c) (X5 m c)).symm))

theorem carry6 : Carry m c (W6 m ρ c) :=
  ⟨(W6_of_ne m ρ c main_v3 (by decide)).trans (carry5 m ρ c).src,
   (W6_of_ne m ρ c main_v6 (by decide)).trans (carry5 m ρ c).dst,
   (W6_of_ne m ρ c main_v30 (by decide)).trans (carry5 m ρ c).nrm,
   (W6_of_ne m ρ c main_arg2 (by decide)).trans (carry5 m ρ c).a2,
   (W6_of_ne m ρ c main_arg5 (by decide)).trans (carry5 m ρ c).a5,
   (W6_of_ne m ρ c main_arg6 (by decide)).trans (carry5 m ρ c).a6,
   (W6_of_ne m ρ c main_arg7 (by decide)).trans (carry5 m ρ c).a7,
   (W6_of_ne m ρ c main_arg8 (by decide)).trans (carry5 m ρ c).a8⟩

/-! ## Stretch 2 and region 2 -/
theorem carry7 : Carry m c (W7 m ρ c) :=
  have k := Stretch.s2_keep (W6 m ρ c)
  ⟨k.1.trans (carry6 m ρ c).src, k.2.1.trans (carry6 m ρ c).dst, k.2.2.1.trans (carry6 m ρ c).nrm,
   k.2.2.2.1.trans (carry6 m ρ c).a2, k.2.2.2.2.1.trans (carry6 m ρ c).a5, k.2.2.2.2.2.1.trans (carry6 m ρ c).a6,
   k.2.2.2.2.2.2.1.trans (carry6 m ρ c).a7, k.2.2.2.2.2.2.2.trans (carry6 m ρ c).a8⟩

theorem sum2 : W7 m ρ c (Proc.devRef .tc main_v62) = (Cert.ReferenceIdeal.Read.val_main_v67 (F := Ideal) (X0 m c) (X1 m c) (X3 m c) (X4 m c) (X5 m c)) :=
  (Stretch.s2_summed (W6 m ρ c)).trans
    ((agg_congr (carry6 m ρ c).src (carry6 m ρ c).dst (carry6 m ρ c).nrm (hw1 m ρ c)).trans (Cert.ReferenceIdeal.Stagewise.sum1 (X0 m c) (X1 m c) (X3 m c) (X4 m c) (X5 m c)).symm)

theorem brow2 : W7 m ρ c (Proc.devRef .tc main_v67) = row (Cert.ReferenceIdeal.Read.val_main_v53 (F := Ideal) (X6 m c)) :=
  (Stretch.s2_brow (W6 m ρ c)).trans (congrArg (fun z => row (Cert.ReferenceIdeal.Read.val_main_v53 (F := Ideal) z)) (carry6 m ρ c).a6)

theorem wgt2 : W7 m ρ c (Proc.devRef .tc main_v66) = (Cert.ReferenceIdeal.Read.val_main_v74 (F := Ideal) (X5 m c)) :=
  (Stretch.s2_wgt (W6 m ρ c)).trans (congrArg (fun z => Cert.ReferenceIdeal.Read.val_main_v74 (F := Ideal) z) (carry6 m ρ c).a5)

theorem res2 : W7 m ρ c (Proc.devRef .tc main_v49_0) = (Cert.ReferenceIdeal.Read.val_main_v47 (F := Ideal) (X0 m c) (X1 m c) (X3 m c) (X4 m c)) :=
  (Stretch.s2_keep_prev (W6 m ρ c)).trans (act1 m ρ c)

theorem actForm2 : reluBias (W7 m ρ c (Proc.devRef .tc main_v62)) (W7 m ρ c (Proc.devRef .tc main_v67)) = (Cert.ReferenceIdeal.Read.val_main_v71 (F := Ideal) (X0 m c) (X1 m c) (X3 m c) (X4 m c) (X5 m c) (X6 m c)) :=
  (congrArg₂ reluBias (sum2 m ρ c) (brow2 m ρ c)).trans (Cert.ReferenceIdeal.Stagewise.act1 (X0 m c) (X1 m c) (X3 m c) (X4 m c) (X5 m c) (X6 m c)).symm

theorem act2 : W8 m ρ c (Proc.devRef .tc main_v68_0) = (Cert.ReferenceIdeal.Read.val_main_v71 (F := Ideal) (X0 m c) (X1 m c) (X3 m c) (X4 m c) (X5 m c) (X6 m c)) := by
  have h : (dat2 (V7 m ρ) c).arrAt 4 cfg2.N = reluBias (W7 m ρ c (Proc.devRef .tc main_v62)) (W7 m ρ c (Proc.devRef .tc main_v67)) := Fused2.final4 (V7 m ρ) c
  exact (W8_arr m ρ c 4).trans (h.trans (actForm2 m ρ c))

theorem hw2 : (W8 m ρ c (Proc.devRef .tc main_v68_1) : (⟨S50000x128, .f32⟩ : BufTy).Contents (Elt Ideal)) = (Cert.ReferenceIdeal.Read.val_main_v77 (F := Ideal) (X0 m c) (X1 m c) (X3 m c) (X4 m c) (X5 m c) (X6 m c)) := by
  have h : (dat2 (V7 m ρ) c).arrAt 5 cfg2.N
      = mm (addf (F := Ideal) (φ := .f32) (reluBias (W7 m ρ c (Proc.devRef .tc main_v62)) (W7 m ρ c (Proc.devRef .tc main_v67))) (W7 m ρ c (Proc.devRef .tc main_v49_0)))
          (W7 m ρ c (Proc.devRef .tc main_v66)) := Fused2.final5 (V7 m ρ) c
  exact (W8_arr m ρ c 5).trans (h.trans ((congrArg₂ mm (congrArg₂ (addf (F := Ideal) (φ := .f32)) (actForm2 m ρ c) (res2 m ρ c)) (wgt2 m ρ c)).trans
    (Cert.ReferenceIdeal.Stagewise.hw2 (X0 m c) (X1 m c) (X3 m c) (X4 m c) (X5 m c) (X6 m c)).symm))

theorem carry8 : Carry m c (W8 m ρ c) :=
  ⟨(W8_of_ne m ρ c main_v3 (by decide)).trans (carry7 m ρ c).src,
   (W8_of_ne m ρ c main_v6 (by decide)).trans (carry7 m ρ c).dst,
   (W8_of_ne m ρ c main_v30 (by decide)).trans (carry7 m ρ c).nrm,
   (W8_of_ne m ρ c main_arg2 (by decide)).trans (carry7 m ρ c).a2,
   (W8_of_ne m ρ c main_arg5 (by decide)).trans (carry7 m ρ c).a5,
   (W8_of_ne m ρ c main_arg6 (by decide)).trans (carry7 m ρ c).a6,
   (W8_of_ne m ρ c main_arg7 (by decide)).trans (carry7 m ρ c).a7,
   (W8_of_ne m ρ c main_arg8 (by decide)).trans (carry7 m ρ c).a8⟩

/-! ## Stretch 3 and region 3 -/
theorem carry9 : Carry m c (W9 m ρ c) :=
  have k := Stretch.s3_keep (W8 m ρ c)
  ⟨k.1.trans (carry8 m ρ c).src, k.2.1.trans (carry8 m ρ c).dst, k.2.2.1.trans (carry8 m ρ c).nrm,
   k.2.2.2.1.trans (carry8 m ρ c).a2, k.2.2.2.2.1.trans (carry8 m ρ c).a5, k.2.2.2.2.2.1.trans (carry8 m ρ c).a6,
   k.2.2.2.2.2.2.1.trans (carry8 m ρ c).a7, k.2.2.2.2.2.2.2.trans (carry8 m ρ c).a8⟩

theorem sum3 : W9 m ρ c (Proc.devRef .tc main_v81) = (Cert.ReferenceIdeal.Read.val_main_v90 (F := Ideal) (X0 m c) (X1 m c) (X3 m c) (X4 m c) (X5 m c) (X6 m c)) :=
  (Stretch.s3_summed (W8 m ρ c)).trans
    ((agg_congr (carry8 m ρ c).src (carry8 m ρ c).dst (carry8 m ρ c).nrm (hw2 m ρ c)).trans (Cert.ReferenceIdeal.Stagewise.sum2 (X0 m c) (X1 m c) (X3 m c) (X4 m c) (X5 m c) (X6 m c)).symm)

theorem brow3 : W9 m ρ c (Proc.devRef .tc main_v86) = row (Cert.ReferenceIdeal.Read.val_main_v76 (F := Ideal) (X6 m c)) :=
  (Stretch.s3_brow (W8 m ρ c)).trans (congrArg (fun z => row (Cert.ReferenceIdeal.Read.val_main_v76 (F := Ideal) z)) (carry8 m ρ c).a6)

theorem wgt3 : W9 m ρ c (Proc.devRef .tc main_v85) = (Cert.ReferenceIdeal.Read.val_main_v97 (F := Ideal) (X5 m c)) :=
  (Stretch.s3_wgt (W8 m ρ c)).trans (congrArg (fun z => Cert.ReferenceIdeal.Read.val_main_v97 (F := Ideal) z) (carry8 m ρ c).a5)

theorem res3 : W9 m ρ c (Proc.devRef .tc main_v68_0) = (Cert.ReferenceIdeal.Read.val_main_v71 (F := Ideal) (X0 m c) (X1 m c) (X3 m c) (X4 m c) (X5 m c) (X6 m c)) :=
  (Stretch.s3_keep_prev (W8 m ρ c)).trans (act2 m ρ c)

theorem actForm3 : reluBias (W9 m ρ c (Proc.devRef .tc main_v81)) (W9 m ρ c (Proc.devRef .tc main_v86)) = (Cert.ReferenceIdeal.Read.val_main_v94 (F := Ideal) (X0 m c) (X1 m c) (X3 m c) (X4 m c) (X5 m c) (X6 m c)) :=
  (congrArg₂ reluBias (sum3 m ρ c) (brow3 m ρ c)).trans (Cert.ReferenceIdeal.Stagewise.act2 (X0 m c) (X1 m c) (X3 m c) (X4 m c) (X5 m c) (X6 m c)).symm

theorem act3 : W10 m ρ c (Proc.devRef .tc main_v87_0) = (Cert.ReferenceIdeal.Read.val_main_v94 (F := Ideal) (X0 m c) (X1 m c) (X3 m c) (X4 m c) (X5 m c) (X6 m c)) := by
  have h : (dat3 (V9 m ρ) c).arrAt 4 cfg3.N = reluBias (W9 m ρ c (Proc.devRef .tc main_v81)) (W9 m ρ c (Proc.devRef .tc main_v86)) := Fused3.final4 (V9 m ρ) c
  exact (W10_arr m ρ c 4).trans (h.trans (actForm3 m ρ c))

theorem hw3 : (W10 m ρ c (Proc.devRef .tc main_v87_1) : (⟨S50000x128, .f32⟩ : BufTy).Contents (Elt Ideal)) = (Cert.ReferenceIdeal.Read.val_main_v100 (F := Ideal) (X0 m c) (X1 m c) (X3 m c) (X4 m c) (X5 m c) (X6 m c)) := by
  have h : (dat3 (V9 m ρ) c).arrAt 5 cfg3.N
      = mm (addf (F := Ideal) (φ := .f32) (reluBias (W9 m ρ c (Proc.devRef .tc main_v81)) (W9 m ρ c (Proc.devRef .tc main_v86))) (W9 m ρ c (Proc.devRef .tc main_v68_0)))
          (W9 m ρ c (Proc.devRef .tc main_v85)) := Fused3.final5 (V9 m ρ) c
  exact (W10_arr m ρ c 5).trans (h.trans ((congrArg₂ mm (congrArg₂ (addf (F := Ideal) (φ := .f32)) (actForm3 m ρ c) (res3 m ρ c)) (wgt3 m ρ c)).trans
    (Cert.ReferenceIdeal.Stagewise.hw3 (X0 m c) (X1 m c) (X3 m c) (X4 m c) (X5 m c) (X6 m c)).symm))

theorem carry10 : Carry m c (W10 m ρ c) :=
  ⟨(W10_of_ne m ρ c main_v3 (by decide)).trans (carry9 m ρ c).src,
   (W10_of_ne m ρ c main_v6 (by decide)).trans (carry9 m ρ c).dst,
   (W10_of_ne m ρ c main_v30 (by decide)).trans (carry9 m ρ c).nrm,
   (W10_of_ne m ρ c main_arg2 (by decide)).trans (carry9 m ρ c).a2,
   (W10_of_ne m ρ c main_arg5 (by decide)).trans (carry9 m ρ c).a5,
   (W10_of_ne m ρ c main_arg6 (by decide)).trans (carry9 m ρ c).a6,
   (W10_of_ne m ρ c main_arg7 (by decide)).trans (carry9 m ρ c).a7,
   (W10_of_ne m ρ c main_arg8 (by decide)).trans (carry9 m ρ c).a8⟩

/-! ## Stretch 4 and region 4 -/
theorem carry11 : Carry m c (W11 m ρ c) :=
  have k := Stretch.s4_keep (W10 m ρ c)
  ⟨k.1.trans (carry10 m ρ c).src, k.2.1.trans (carry10 m ρ c).dst, k.2.2.1.trans (carry10 m ρ c).nrm,
   k.2.2.2.1.trans (carry10 m ρ c).a2, k.2.2.2.2.1.trans (carry10 m ρ c).a5, k.2.2.2.2.2.1.trans (carry10 m ρ c).a6,
   k.2.2.2.2.2.2.1.trans (carry10 m ρ c).a7, k.2.2.2.2.2.2.2.trans (carry10 m ρ c).a8⟩

theorem sum4 : W11 m ρ c (Proc.devRef .tc main_v100) = (Cert.ReferenceIdeal.Read.val_main_v113 (F := Ideal) (X0 m c) (X1 m c) (X3 m c) (X4 m c) (X5 m c) (X6 m c)) :=
  (Stretch.s4_summed (W10 m ρ c)).trans
    ((agg_congr (carry10 m ρ c).src (carry10 m ρ c).dst (carry10 m ρ c).nrm (hw3 m ρ c)).trans (Cert.ReferenceIdeal.Stagewise.sum3 (X0 m c) (X1 m c) (X3 m c) (X4 m c) (X5 m c) (X6 m c)).symm)

theorem brow4 : W11 m ρ c (Proc.devRef .tc main_v105) = row (Cert.ReferenceIdeal.Read.val_main_v99 (F := Ideal) (X6 m c)) :=
  (Stretch.s4_brow (W10 m ρ c)).trans (congrArg (fun z => row (Cert.ReferenceIdeal.Read.val_main_v99 (F := Ideal) z)) (carry10 m ρ c).a6)

theorem wgt4 : W11 m ρ c (Proc.devRef .tc main_v104) = (Cert.ReferenceIdeal.Read.val_main_v120 (F := Ideal) (X5 m c)) :=
  (Stretch.s4_wgt (W10 m ρ c)).trans (congrArg (fun z => Cert.ReferenceIdeal.Read.val_main_v120 (F := Ideal) z) (carry10 m ρ c).a5)

theorem res4 : W11 m ρ c (Proc.devRef .tc main_v87_0) = (Cert.ReferenceIdeal.Read.val_main_v94 (F := Ideal) (X0 m c) (X1 m c) (X3 m c) (X4 m c) (X5 m c) (X6 m c)) :=
  (Stretch.s4_keep_prev (W10 m ρ c)).trans (act3 m ρ c)

theorem actForm4 : reluBias (W11 m ρ c (Proc.devRef .tc main_v100)) (W11 m ρ c (Proc.devRef .tc main_v105)) = (Cert.ReferenceIdeal.Read.val_main_v117 (F := Ideal) (X0 m c) (X1 m c) (X3 m c) (X4 m c) (X5 m c) (X6 m c)) :=
  (congrArg₂ reluBias (sum4 m ρ c) (brow4 m ρ c)).trans (Cert.ReferenceIdeal.Stagewise.act3 (X0 m c) (X1 m c) (X3 m c) (X4 m c) (X5 m c) (X6 m c)).symm

theorem act4 : W12 m ρ c (Proc.devRef .tc main_v106_0) = (Cert.ReferenceIdeal.Read.val_main_v117 (F := Ideal) (X0 m c) (X1 m c) (X3 m c) (X4 m c) (X5 m c) (X6 m c)) := by
  have h : (dat4 (V11 m ρ) c).arrAt 4 cfg4.N = reluBias (W11 m ρ c (Proc.devRef .tc main_v100)) (W11 m ρ c (Proc.devRef .tc main_v105)) := Fused4.final4 (V11 m ρ) c
  exact (W12_arr m ρ c 4).trans (h.trans (actForm4 m ρ c))

theorem hw4 : (W12 m ρ c (Proc.devRef .tc main_v106_1) : (⟨S50000x128, .f32⟩ : BufTy).Contents (Elt Ideal)) = (Cert.ReferenceIdeal.Read.val_main_v123 (F := Ideal) (X0 m c) (X1 m c) (X3 m c) (X4 m c) (X5 m c) (X6 m c)) := by
  have h : (dat4 (V11 m ρ) c).arrAt 5 cfg4.N
      = mm (addf (F := Ideal) (φ := .f32) (reluBias (W11 m ρ c (Proc.devRef .tc main_v100)) (W11 m ρ c (Proc.devRef .tc main_v105))) (W11 m ρ c (Proc.devRef .tc main_v87_0)))
          (W11 m ρ c (Proc.devRef .tc main_v104)) := Fused4.final5 (V11 m ρ) c
  exact (W12_arr m ρ c 5).trans (h.trans ((congrArg₂ mm (congrArg₂ (addf (F := Ideal) (φ := .f32)) (actForm4 m ρ c) (res4 m ρ c)) (wgt4 m ρ c)).trans
    (Cert.ReferenceIdeal.Stagewise.hw4 (X0 m c) (X1 m c) (X3 m c) (X4 m c) (X5 m c) (X6 m c)).symm))

theorem carry12 : Carry m c (W12 m ρ c) :=
  ⟨(W12_of_ne m ρ c main_v3 (by decide)).trans (carry11 m ρ c).src,
   (W12_of_ne m ρ c main_v6 (by decide)).trans (carry11 m ρ c).dst,
   (W12_of_ne m ρ c main_v30 (by decide)).trans (carry11 m ρ c).nrm,
   (W12_of_ne m ρ c main_arg2 (by decide)).trans (carry11 m ρ c).a2,
   (W12_of_ne m ρ c main_arg5 (by decide)).trans (carry11 m ρ c).a5,
   (W12_of_ne m ρ c main_arg6 (by decide)).trans (carry11 m ρ c).a6,
   (W12_of_ne m ρ c main_arg7 (by decide)).trans (carry11 m ρ c).a7,
   (W12_of_ne m ρ c main_arg8 (by decide)).trans (carry11 m ρ c).a8⟩

/-! ## Stretch 5 and region 5 -/
theorem carry13 : Carry m c (W13 m ρ c) :=
  have k := Stretch.s5_keep (W12 m ρ c)
  ⟨k.1.trans (carry12 m ρ c).src, k.2.1.trans (carry12 m ρ c).dst, k.2.2.1.trans (carry12 m ρ c).nrm,
   k.2.2.2.1.trans (carry12 m ρ c).a2, k.2.2.2.2.1.trans (carry12 m ρ c).a5, k.2.2.2.2.2.1.trans (carry12 m ρ c).a6,
   k.2.2.2.2.2.2.1.trans (carry12 m ρ c).a7, k.2.2.2.2.2.2.2.trans (carry12 m ρ c).a8⟩

theorem sum5 : W13 m ρ c (Proc.devRef .tc main_v119) = (Cert.ReferenceIdeal.Read.val_main_v136 (F := Ideal) (X0 m c) (X1 m c) (X3 m c) (X4 m c) (X5 m c) (X6 m c)) :=
  (Stretch.s5_summed (W12 m ρ c)).trans
    ((agg_congr (carry12 m ρ c).src (carry12 m ρ c).dst (carry12 m ρ c).nrm (hw4 m ρ c)).trans (Cert.ReferenceIdeal.Stagewise.sum4 (X0 m c) (X1 m c) (X3 m c) (X4 m c) (X5 m c) (X6 m c)).symm)

theorem brow5 : W13 m ρ c (Proc.devRef .tc main_v122) = row (Cert.ReferenceIdeal.Read.val_main_v122 (F := Ideal) (X6 m c)) :=
  (Stretch.s5_brow (W12 m ρ c)).trans (congrArg (fun z => row (Cert.ReferenceIdeal.Read.val_main_v122 (F := Ideal) z)) (carry12 m ρ c).a6)

theorem act5 : W14 m ρ c (Proc.devRef .tc main_v123) = (Cert.ReferenceIdeal.Read.val_main_v140 (F := Ideal) (X0 m c) (X1 m c) (X3 m c) (X4 m c) (X5 m c) (X6 m c)) := by
  have h : (dat5 (V13 m ρ) c).arrAt 2 cfg5.N = reluBias (W13 m ρ c (Proc.devRef .tc main_v119)) (W13 m ρ c (Proc.devRef .tc main_v122)) := Relu5.final (V13 m ρ) c
  exact (W14_arr m ρ c 2).trans (h.trans ((congrArg₂ reluBias (sum5 m ρ c) (brow5 m ρ c)).trans (Cert.ReferenceIdeal.Stagewise.act4 (X0 m c) (X1 m c) (X3 m c) (X4 m c) (X5 m c) (X6 m c)).symm))

theorem carry14 : Carry m c (W14 m ρ c) :=
  ⟨(W14_of_ne m ρ c main_v3 (by decide)).trans (carry13 m ρ c).src,
   (W14_of_ne m ρ c main_v6 (by decide)).trans (carry13 m ρ c).dst,
   (W14_of_ne m ρ c main_v30 (by decide)).trans (carry13 m ρ c).nrm,
   (W14_of_ne m ρ c main_arg2 (by decide)).trans (carry13 m ρ c).a2,
   (W14_of_ne m ρ c main_arg5 (by decide)).trans (carry13 m ρ c).a5,
   (W14_of_ne m ρ c main_arg6 (by decide)).trans (carry13 m ρ c).a6,
   (W14_of_ne m ρ c main_arg7 (by decide)).trans (carry13 m ρ c).a7,
   (W14_of_ne m ρ c main_arg8 (by decide)).trans (carry13 m ρ c).a8⟩

/-! ## The last stretch: the two results -/
theorem pooled : W15 m ρ c (Proc.devRef .tc main_v135) = (Cert.ReferenceIdeal.Read.val_main_v152 (F := Ideal) (X0 m c) (X1 m c) (X2 m c) (X3 m c) (X4 m c) (X5 m c) (X6 m c)) :=
  (Stretch.s6_pool (W14 m ρ c)).trans ((congrArg₂ (pool (F := Ideal)) (carry14 m ρ c).a2 (act5 m ρ c)).trans (Cert.ReferenceIdeal.Stagewise.pooled (X0 m c) (X1 m c) (X2 m c) (X3 m c) (X4 m c) (X5 m c) (X6 m c)).symm)

theorem classified : W15 m ρ c (Proc.devRef .tc main_v139) = (Cert.ReferenceIdeal.Read.val_main_v156 (F := Ideal) (X0 m c) (X1 m c) (X2 m c) (X3 m c) (X4 m c) (X5 m c) (X6 m c) (X7 m c) (X8 m c)) :=
  (Stretch.s6_head (W14 m ρ c)).trans
    ((by rw [(congrArg₂ (pool (F := Ideal)) (carry14 m ρ c).a2 (act5 m ρ c)).trans (Cert.ReferenceIdeal.Stagewise.pooled (X0 m c) (X1 m c) (X2 m c) (X3 m c) (X4 m c) (X5 m c) (X6 m c)).symm, (carry14 m ρ c).a7, (carry14 m ρ c).a8] :
      head (F := Ideal) (pool (F := Ideal) (W14 m ρ c (Proc.devRef .tc main_arg2)) (W14 m ρ c (Proc.devRef .tc main_v123))) (W14 m ρ c (Proc.devRef .tc main_arg7)) (W14 m ρ c (Proc.devRef .tc main_arg8))
        = head (F := Ideal) (Cert.ReferenceIdeal.Read.val_main_v152 (F := Ideal) (X0 m c) (X1 m c) (X2 m c) (X3 m c) (X4 m c) (X5 m c) (X6 m c)) (X7 m c) (X8 m c)).trans (Cert.ReferenceIdeal.Stagewise.classified (X0 m c) (X1 m c) (X2 m c) (X3 m c) (X4 m c) (X5 m c) (X6 m c) (X7 m c) (X8 m c)).symm)

end Cert.KernelIdeal.Chain

end
-- ==== Proof.lean ====
/-
  Equivalence, over the extended reals, of a five-layer residual graph-convolution network (dense products and fused
  bias / rectify / residual / product steps as six pipelined regions among host gather-scale-sum stretches, then a per-graph
  mean and a linear classifier) with its reference, which spells the same network with host operations only.

  Both programs compute, with `agg` the gather of rows along the edges' sources, their scaling by the symmetric degree
  normalisation and their sum per destination node:
      c₀ = max (agg (x · W_in) + b_in, 0),   c_{k+1} = max (agg ((c_k + c_{k-1}) · W_k) + b_k, 0)   (c_{-1} = 0),
  then the mean of c₄'s rows per graph and that mean times the classifier weight plus its bias.  The kernel computes each
  product and each rectified bias layer ten row blocks at a time; an entry of either depends on one row of its left
  operand only, and the blocks tile the rows, so every region's output array is the whole-array expression (the modules
  named after the regions).  The changes of float format the kernel makes around the matrix unit and the gather are the
  identity on the extended reals, the host stretches between the regions are the reference's own operations on the same
  operands, and buffers a segment does not write keep their contents; so buffer by buffer the kernel program holds the
  reference's stage of the same meaning (the chain module), and the two results agree.  No law that needs finiteness is
  used: the two sides are the same expression of the arguments.  The ideal pass rewrote nothing, so `preserves` is trivial.
-/
import proofs.«105511_j64080912056839_2_alg».proof.Defs
import proofs.«105511_j64080912056839_2_alg».proof.Proof.Gen.Kernel
import proofs.«105511_j64080912056839_2_alg».proof.Proof.Gen.Kernel.Skeleton
import proofs.«105511_j64080912056839_2_alg».proof.Proof.Gen.Kernel.Launch
import proofs.«105511_j64080912056839_2_alg».proof.Proof.Gen.Kernel.Points
import proofs.«105511_j64080912056839_2_alg».proof.Proof.Gen.Kernel.Frame
import proofs.«105511_j64080912056839_2_alg».proof.Proof.Gen.KernelIdeal
import proofs.«105511_j64080912056839_2_alg».proof.Proof.Gen.KernelIdeal.Skeleton
import proofs.«105511_j64080912056839_2_alg».proof.Proof.Gen.KernelIdeal.Launch
import proofs.«105511_j64080912056839_2_alg».proof.Proof.Gen.KernelIdeal.Points
import proofs.«105511_j64080912056839_2_alg».proof.Proof.Gen.KernelIdeal.Frame
import proofs.«105511_j64080912056839_2_alg».proof.Proof.Gen.ReferenceIdeal
import proofs.«105511_j64080912056839_2_alg».proof.Proof.RefRun
import proofs.«105511_j64080912056839_2_alg».proof.Proof.RefRead
import proofs.«105511_j64080912056839_2_alg».proof.Proof.Gen.Pre_finite_inputs
import proofs.«105511_j64080912056839_2_alg».proof.Proof.Named
import proofs.«105511_j64080912056839_2_alg».proof.Proof.Chain
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the classifier's result and the pooled means at the reference's stages of the arguments. -/
theorem algebraic : Cert.algebraic_KernelIdeal_ReferenceIdeal := by
  intro m ρ m' ρ' _ hagree
  refine ⟨fun c => Cert.ReferenceIdeal.Read.val_main_v156 (F := Ideal) (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X5 m c) (Cert.KernelIdeal.Chain.X6 m c) (Cert.KernelIdeal.Chain.X7 m c) (Cert.KernelIdeal.Chain.X8 m c),
    fun c => Cert.ReferenceIdeal.Read.val_main_v152 (F := Ideal) (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X5 m c) (Cert.KernelIdeal.Chain.X6 m c), ?_, ?_⟩
  · exact (θ_run Cert.KernelIdeal.defs _ _).mono (fun r h c =>
      ⟨(h c _ (Cert.KernelIdeal.Gen.mem_uc Cert.KernelIdeal.main_v139 (by decide))).trans (Cert.KernelIdeal.Chain.classified m ρ c),
       (h c _ (Cert.KernelIdeal.Gen.mem_uc Cert.KernelIdeal.main_v135 (by decide))).trans (Cert.KernelIdeal.Chain.pooled m ρ c),
       (h c _ (Cert.KernelIdeal.Gen.mem_uc Cert.KernelIdeal.main_arg0 (by decide))).trans (Cert.KernelIdeal.Gen.W15_main_arg0 m ρ c),
       (h c _ (Cert.KernelIdeal.Gen.mem_uc Cert.KernelIdeal.main_arg1 (by decide))).trans (Cert.KernelIdeal.Gen.W15_main_arg1 m ρ c),
       (h c _ (Cert.KernelIdeal.Gen.mem_uc Cert.KernelIdeal.main_arg2 (by decide))).trans (Cert.KernelIdeal.Gen.W15_main_arg2 m ρ c),
       (h c _ (Cert.KernelIdeal.Gen.mem_uc Cert.KernelIdeal.main_arg3 (by decide))).trans (Cert.KernelIdeal.Gen.W15_main_arg3 m ρ c),
       (h c _ (Cert.KernelIdeal.Gen.mem_uc Cert.KernelIdeal.main_arg4 (by decide))).trans (Cert.KernelIdeal.Gen.W15_main_arg4 m ρ c),
       (h c _ (Cert.KernelIdeal.Gen.mem_uc Cert.KernelIdeal.main_arg5 (by decide))).trans (Cert.KernelIdeal.Gen.W15_main_arg5 m ρ c),
       (h c _ (Cert.KernelIdeal.Gen.mem_uc Cert.KernelIdeal.main_arg6 (by decide))).trans (Cert.KernelIdeal.Gen.W15_main_arg6 m ρ c),
       (h c _ (Cert.KernelIdeal.Gen.mem_uc Cert.KernelIdeal.main_arg7 (by decide))).trans (Cert.KernelIdeal.Gen.W15_main_arg7 m ρ c),
       (h c _ (Cert.KernelIdeal.Gen.mem_uc Cert.KernelIdeal.main_arg8 (by decide))).trans (Cert.KernelIdeal.Gen.W15_main_arg8 m ρ c)⟩)
      (Cert.KernelIdeal.Named.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v156_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · rw [Cert.ReferenceIdeal.Read.val_main_v152_eq, (hagree c).1, (hagree c).2.1, (hagree c).2.2.1, (hagree c).2.2.2.1, (hagree c).2.2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
